-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩
abbrev S5000x1 : Shape := ⟨2, ![5000, 1]⟩

abbrev nBuf : Space → Nat
  | .hbm => 124
  | .vmem => 64
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S1600000, .f32⟩
  | .hbm, ⟨47, _⟩ => ⟨S100000, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x1, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x1, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S1600000x1, .f32⟩
  | .hbm, ⟨79, _⟩ => ⟨S1600000x128, .f32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S100000x1, .f32⟩
  | .hbm, ⟨86, _⟩ => ⟨S1x128, .f32⟩
  | .hbm, ⟨87, _⟩ => ⟨S100000x128, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x128, .f32⟩
  | .hbm, ⟨97, _⟩ => ⟨S_, .f32⟩
  | .hbm, ⟨98, _⟩ => ⟨S100000x128, .f32⟩
  | .hbm, ⟨99, _⟩ => ⟨S1600000x1, .i32⟩
  | .hbm, ⟨100, _⟩ => ⟨S100000x128, .f32⟩
  | .hbm, ⟨101, _⟩ => ⟨S1x128, .f32⟩
  | .hbm, ⟨102, _⟩ => ⟨S100000x128, .f32⟩
  | .hbm, ⟨103, _⟩ => ⟨S_, .i32⟩
  | .hbm, ⟨104, _⟩ => ⟨S1600000, .i32⟩
  | .hbm, ⟨105, _⟩ => ⟨S1600000, .i1⟩
  | .hbm, ⟨106, _⟩ => ⟨S_, .i32⟩
  | .hbm, ⟨107, _⟩ => ⟨S1600000, .i32⟩
  | .hbm, ⟨108, _⟩ => ⟨S1600000, .i32⟩
  | .hbm, ⟨109, _⟩ => ⟨S1600000, .i32⟩
  | .hbm, ⟨110, _⟩ => ⟨S1600000x1, .i32⟩
  | .hbm, ⟨111, _⟩ => ⟨S1600000x128, .f32⟩
  | .hbm, ⟨112, _⟩ => ⟨S_, .f32⟩
  | .hbm, ⟨113, _⟩ => ⟨S100000x128, .f32⟩
  | .hbm, ⟨114, _⟩ => ⟨S1600000x1, .i32⟩
  | .hbm, ⟨115, _⟩ => ⟨S100000x128, .f32⟩
  | .hbm, ⟨116, _⟩ => ⟨S1x128, .f32⟩
  | .hbm, ⟨117, _⟩ => ⟨S100000x128, .f32⟩
  | .hbm, ⟨118, _⟩ => ⟨S1x128, .f32⟩
  | .hbm, ⟨119, _⟩ => ⟨S100000x128, .f32⟩
  | .hbm, ⟨120, _⟩ => ⟨S1x128, .f32⟩
  | .hbm, ⟨121, _⟩ => ⟨S100000x128, .f32⟩
  | .hbm, ⟨122, _⟩ => ⟨S1x128, .f32⟩
  | .hbm, ⟨123, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S128x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_c_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_11 : Ref sig .tc := ⟨.hbm, 88, rfl⟩
abbrev main_v61 : Ref sig .tc := ⟨.hbm, 89, rfl⟩
abbrev main_v62 : Ref sig .tc := ⟨.hbm, 90, rfl⟩
abbrev main_c_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_14 : Ref sig .tc := ⟨.hbm, 103, rfl⟩
abbrev main_v73 : Ref sig .tc := ⟨.hbm, 104, rfl⟩
abbrev main_v74 : Ref sig .tc := ⟨.hbm, 105, rfl⟩
abbrev main_c_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_16 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg4_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg3_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg4_0 : Ref sig .tc := ⟨.vmem, 62, rfl⟩
abbrev cc8_stg4_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem4_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem3_0 : DmaSem sig := 48
abbrev cc6_sem3_1 : DmaSem sig := 49
abbrev cc7_sem0_0 : DmaSem sig := 50
abbrev cc7_sem0_1 : DmaSem sig := 51
abbrev cc7_sem1_0 : DmaSem sig := 52
abbrev cc7_sem2_0 : DmaSem sig := 53
abbrev cc7_sem3_0 : DmaSem sig := 54
abbrev cc7_sem3_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem3_0 : DmaSem sig := 61
abbrev cc8_sem4_0 : DmaSem sig := 62
abbrev cc8_sem4_1 : DmaSem sig := 63

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S100000x128.size a
  hwx7_3 : ∀ i : grid7.Coords, EltTy.bits .f32 = 32 ∨ (Rect.block (s := S100000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S100000x128.size a
  hwx8_1 : ∀ i : grid8.Coords, EltTy.bits .f32 = 32 ∨ (Rect.block (s := S100000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x128.size a ≤ S100000x128.size a
  hwx8_4 : ∀ i : grid8.Coords, EltTy.bits .f32 = 32 ∨ (Rect.block (s := S100000x128) S5000x128.size (cc8_transform_4 i) (hinb8_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v72) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v83) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v84) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v85) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v86) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v60) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v87) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v88) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v86) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v88) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg12) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v89) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v90) S5000x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S100000, .f32⟩
  | 48 => ⟨S100000x128, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S1600000x1, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000x1, .f32⟩
  | 66 => ⟨S100000x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x128, .f32⟩
  | 85 => ⟨S1600000x1, .f32⟩
  | 86 => ⟨S1600000x128, .f32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S100000x1, .f32⟩
  | 93 => ⟨S100000x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x128, .f32⟩
  | 126 => ⟨S_, .f32⟩
  | 127 => ⟨S100000x128, .f32⟩
  | _ => ⟨S100000x128, .f32⟩

abbrev hbmTy0_1 (i : Nat) : BufTy := match i % 128 with
  | 0 => ⟨S1600000x1, .i32⟩
  | 1 => ⟨S100000x128, .f32⟩
  | 2 => ⟨S100000x128, .f32⟩
  | 3 => ⟨S100000x128, .f32⟩
  | 4 => ⟨S1x128, .f32⟩
  | 5 => ⟨S100000x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call0_cst : Ref sig .tc := ⟨.hbm, 72, rfl⟩
abbrev main_call0_v0 : Ref sig .tc := ⟨.hbm, 73, rfl⟩
abbrev main_v48 : Ref sig .tc := ⟨.hbm, 74, rfl⟩
abbrev main_v49 : Ref sig .tc := ⟨.hbm, 75, rfl⟩
abbrev main_c_8 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_10 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_11 : Ref sig .tc := ⟨.hbm, 99, rfl⟩
abbrev main_v70 : Ref sig .tc := ⟨.hbm, 100, rfl⟩
abbrev main_v71 : Ref sig .tc := ⟨.hbm, 101, rfl⟩
abbrev main_c_12 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_13 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_14 : Ref sig .tc := ⟨.hbm, 117, rfl⟩
abbrev main_v85 : Ref sig .tc := ⟨.hbm, 118, rfl⟩
abbrev main_v86 : Ref sig .tc := ⟨.hbm, 119, rfl⟩
abbrev main_c_15 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_16 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KRun.lean ====
/-
  The idealized kernel program's run with its result named. Every weakly fair execution of @main from a memory with
  zero counters terminates, nothing faulting, and in every final state the result buffer holds what the last
  segment boundary's contents say it holds, while the argument arrays are as launched. The argument is the frame's:
  @main is the run of its seventeen segments (eight host stretches, nine regions), whose thread states chain from
  "every unscoped buffer at the launch contents" to "every unscoped buffer at the last boundary's contents"; the
  last thread state is read against the final memory at every unscoped buffer, the result's among them.
-/
import proofs.«138299_j73512660238656_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result buffer read at the last boundary's contents. -/
theorem run_named : θ_run defs (onTc (τ := τ) (main (F := F))) ⟨m, fun _ => 0, ρ⟩ (fun r => ∀ c : Dev nD,
      r.2.mem ((c.tc : Thread nD τ).loc main_v90) = W17 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v90 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c)⟩)

end Cert.KernelIdeal.Val

end
-- ==== Proof.Carry.lean ====
/-
  Buffers carried unchanged through the program's segments. The program is in single-assignment form: a host
  operation writes only its own result, and a region only its output array, so the contents of a buffer at a later
  segment boundary are its contents at an earlier one whenever no segment in between writes it. Each fact below is
  one such chain; an argument's chain ends at the launch memory.
-/
import proofs.«138299_j73512660238656_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Idealize.ShloMosaic Idealize.ShloMosaic.TcCoe Idealize.ShloMosaic.ValueIdx

variable {F : FTy → Type} [FloatOps F]
variable (m : (ℓ : Loc nD τ sig) → Buf (Elt F) ℓ) (ρ : Dev nD → PrngReg)

namespace Carry

/-- A stretch of host operations leaves a buffer as it found it when none of its operations writes that buffer:
    the list of operations is opened, each operation's written set is a singleton, and the buffer differs from
    every one of them. -/
scoped macro "carry_host " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

end Carry

open Carry

/-! ## Arguments at the boundaries where they are read

A region that does not stage the buffer leaves it alone; a region that stages it through an input window leaves
that window's array as it was entered; a host stretch leaves it alone since no operation writes an argument. -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := carry_host hostOps0
    _ = m ((c : Thread nD τ).loc main_arg0) := rfl

theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := carry_host hostOps0
    _ = m ((c : Thread nD τ).loc main_arg2) := rfl

theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := carry_host hostOps0
    _ = m ((c : Thread nD τ).loc main_arg3) := rfl

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := carry_host hostOps1
    _ = W1 m ρ c (Proc.devRef .tc main_arg4) := W2_of_ne m ρ c main_arg4 (by decide)
    _ = W0 m ρ c (Proc.devRef .tc main_arg4) := carry_host hostOps0
    _ = m ((c : Thread nD τ).loc main_arg4) := rfl

theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := carry_host hostOps1
    _ = W1 m ρ c (Proc.devRef .tc main_arg5) := W2_of_ne m ρ c main_arg5 (by decide)
    _ = W0 m ρ c (Proc.devRef .tc main_arg5) := carry_host hostOps0
    _ = m ((c : Thread nD τ).loc main_arg5) := rfl

theorem W7_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := carry_host hostOps3
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := carry_host hostOps1
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_arg0 m ρ c

theorem W7_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := carry_host hostOps3
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := carry_host hostOps1
    _ = W1 m ρ c (Proc.devRef .tc main_arg7) := W2_of_ne m ρ c main_arg7 (by decide)
    _ = W0 m ρ c (Proc.devRef .tc main_arg7) := carry_host hostOps0
    _ = m ((c : Thread nD τ).loc main_arg7) := rfl

theorem W8_arg0 (c : Dev nD) : W8 m ρ c (Proc.devRef .tc main_arg0) = m ((c : Thread nD τ).loc main_arg0) :=
  calc W8 m ρ c (Proc.devRef .tc main_arg0)
    _ = W7 m ρ c (Proc.devRef .tc main_arg0) := carry_host hostOps4
    _ = m ((c : Thread nD τ).loc main_arg0) := W7_arg0 m ρ c

theorem W8_arg6 (c : Dev nD) : W8 m ρ c (Proc.devRef .tc main_arg6) = m ((c : Thread nD τ).loc main_arg6) :=
  calc W8 m ρ c (Proc.devRef .tc main_arg6)
    _ = W7 m ρ c (Proc.devRef .tc main_arg6) := carry_host hostOps4
    _ = W6 m ρ c (Proc.devRef .tc main_arg6) := W7_of_ne m ρ c main_arg6 (by decide)
    _ = W5 m ρ c (Proc.devRef .tc main_arg6) := carry_host hostOps3
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := carry_host hostOps1
    _ = W1 m ρ c (Proc.devRef .tc main_arg6) := W2_of_ne m ρ c main_arg6 (by decide)
    _ = W0 m ρ c (Proc.devRef .tc main_arg6) := carry_host hostOps0
    _ = m ((c : Thread nD τ).loc main_arg6) := rfl

theorem W9_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_of_ne m ρ c main_arg9 (by decide)
    _ = W7 m ρ c (Proc.devRef .tc main_arg9) := carry_host hostOps4
    _ = W6 m ρ c (Proc.devRef .tc main_arg9) := W7_of_ne m ρ c main_arg9 (by decide)
    _ = W5 m ρ c (Proc.devRef .tc main_arg9) := carry_host hostOps3
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := carry_host hostOps1
    _ = W1 m ρ c (Proc.devRef .tc main_arg9) := W2_of_ne m ρ c main_arg9 (by decide)
    _ = W0 m ρ c (Proc.devRef .tc main_arg9) := carry_host hostOps0
    _ = m ((c : Thread nD τ).loc main_arg9) := rfl

theorem W10_arg8 (c : Dev nD) : W10 m ρ c (Proc.devRef .tc main_arg8) = m ((c : Thread nD τ).loc main_arg8) :=
  calc W10 m ρ c (Proc.devRef .tc main_arg8)
    _ = W9 m ρ c (Proc.devRef .tc main_arg8) := carry_host hostOps5
    _ = W8 m ρ c (Proc.devRef .tc main_arg8) := W9_of_ne m ρ c main_arg8 (by decide)
    _ = W7 m ρ c (Proc.devRef .tc main_arg8) := carry_host hostOps4
    _ = W6 m ρ c (Proc.devRef .tc main_arg8) := W7_of_ne m ρ c main_arg8 (by decide)
    _ = W5 m ρ c (Proc.devRef .tc main_arg8) := carry_host hostOps3
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := carry_host hostOps1
    _ = W1 m ρ c (Proc.devRef .tc main_arg8) := W2_of_ne m ρ c main_arg8 (by decide)
    _ = W0 m ρ c (Proc.devRef .tc main_arg8) := carry_host hostOps0
    _ = m ((c : Thread nD τ).loc main_arg8) := rfl

theorem W11_arg11 (c : Dev nD) : W11 m ρ c (Proc.devRef .tc main_arg11) = m ((c : Thread nD τ).loc main_arg11) :=
  calc W11 m ρ c (Proc.devRef .tc main_arg11)
    _ = W10 m ρ c (Proc.devRef .tc main_arg11) := W11_of_ne m ρ c main_arg11 (by decide)
    _ = W9 m ρ c (Proc.devRef .tc main_arg11) := carry_host hostOps5
    _ = W8 m ρ c (Proc.devRef .tc main_arg11) := W9_of_ne m ρ c main_arg11 (by decide)
    _ = W7 m ρ c (Proc.devRef .tc main_arg11) := carry_host hostOps4
    _ = W6 m ρ c (Proc.devRef .tc main_arg11) := W7_of_ne m ρ c main_arg11 (by decide)
    _ = W5 m ρ c (Proc.devRef .tc main_arg11) := carry_host hostOps3
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := carry_host hostOps1
    _ = W1 m ρ c (Proc.devRef .tc main_arg11) := W2_of_ne m ρ c main_arg11 (by decide)
    _ = W0 m ρ c (Proc.devRef .tc main_arg11) := carry_host hostOps0
    _ = m ((c : Thread nD τ).loc main_arg11) := rfl

theorem W12_arg10 (c : Dev nD) : W12 m ρ c (Proc.devRef .tc main_arg10) = m ((c : Thread nD τ).loc main_arg10) :=
  calc W12 m ρ c (Proc.devRef .tc main_arg10)
    _ = W11 m ρ c (Proc.devRef .tc main_arg10) := carry_host hostOps6
    _ = W10 m ρ c (Proc.devRef .tc main_arg10) := W11_of_ne m ρ c main_arg10 (by decide)
    _ = W9 m ρ c (Proc.devRef .tc main_arg10) := carry_host hostOps5
    _ = W8 m ρ c (Proc.devRef .tc main_arg10) := W9_of_ne m ρ c main_arg10 (by decide)
    _ = W7 m ρ c (Proc.devRef .tc main_arg10) := carry_host hostOps4
    _ = W6 m ρ c (Proc.devRef .tc main_arg10) := W7_of_ne m ρ c main_arg10 (by decide)
    _ = W5 m ρ c (Proc.devRef .tc main_arg10) := carry_host hostOps3
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := carry_host hostOps1
    _ = W1 m ρ c (Proc.devRef .tc main_arg10) := W2_of_ne m ρ c main_arg10 (by decide)
    _ = W0 m ρ c (Proc.devRef .tc main_arg10) := carry_host hostOps0
    _ = m ((c : Thread nD τ).loc main_arg10) := rfl

theorem W13_arg11 (c : Dev nD) : W13 m ρ c (Proc.devRef .tc main_arg11) = m ((c : Thread nD τ).loc main_arg11) :=
  calc W13 m ρ c (Proc.devRef .tc main_arg11)
    _ = W12 m ρ c (Proc.devRef .tc main_arg11) := W13_of_ne m ρ c main_arg11 (by decide)
    _ = W11 m ρ c (Proc.devRef .tc main_arg11) := carry_host hostOps6
    _ = m ((c : Thread nD τ).loc main_arg11) := W11_arg11 m ρ c

theorem W14_arg10 (c : Dev nD) : W14 m ρ c (Proc.devRef .tc main_arg10) = m ((c : Thread nD τ).loc main_arg10) :=
  calc W14 m ρ c (Proc.devRef .tc main_arg10)
    _ = W13 m ρ c (Proc.devRef .tc main_arg10) := carry_host hostOps7
    _ = W12 m ρ c (Proc.devRef .tc main_arg10) := (W13_arr m ρ c 1).trans (((dat6 (V12 m ρ) c).arrAt_in 1 rfl _).trans (A_eq6 (V12 m ρ) c 1))
    _ = m ((c : Thread nD τ).loc main_arg10) := W12_arg10 m ρ c

theorem W15_arg13 (c : Dev nD) : W15 m ρ c (Proc.devRef .tc main_arg13) = m ((c : Thread nD τ).loc main_arg13) :=
  calc W15 m ρ c (Proc.devRef .tc main_arg13)
    _ = W14 m ρ c (Proc.devRef .tc main_arg13) := W15_of_ne m ρ c main_arg13 (by decide)
    _ = W13 m ρ c (Proc.devRef .tc main_arg13) := carry_host hostOps7
    _ = W12 m ρ c (Proc.devRef .tc main_arg13) := W13_of_ne m ρ c main_arg13 (by decide)
    _ = W11 m ρ c (Proc.devRef .tc main_arg13) := carry_host hostOps6
    _ = W10 m ρ c (Proc.devRef .tc main_arg13) := W11_of_ne m ρ c main_arg13 (by decide)
    _ = W9 m ρ c (Proc.devRef .tc main_arg13) := carry_host hostOps5
    _ = W8 m ρ c (Proc.devRef .tc main_arg13) := W9_of_ne m ρ c main_arg13 (by decide)
    _ = W7 m ρ c (Proc.devRef .tc main_arg13) := carry_host hostOps4
    _ = W6 m ρ c (Proc.devRef .tc main_arg13) := W7_of_ne m ρ c main_arg13 (by decide)
    _ = W5 m ρ c (Proc.devRef .tc main_arg13) := carry_host hostOps3
    _ = W4 m ρ c (Proc.devRef .tc main_arg13) := W5_of_ne m ρ c main_arg13 (by decide)
    _ = W3 m ρ c (Proc.devRef .tc main_arg13) := W4_of_ne m ρ c main_arg13 (by decide)
    _ = W2 m ρ c (Proc.devRef .tc main_arg13) := carry_host hostOps1
    _ = W1 m ρ c (Proc.devRef .tc main_arg13) := W2_of_ne m ρ c main_arg13 (by decide)
    _ = W0 m ρ c (Proc.devRef .tc main_arg13) := carry_host hostOps0
    _ = m ((c : Thread nD τ).loc main_arg13) := rfl

theorem W16_arg12 (c : Dev nD) : W16 m ρ c (Proc.devRef .tc main_arg12) = m ((c : Thread nD τ).loc main_arg12) :=
  calc W16 m ρ c (Proc.devRef .tc main_arg12)
    _ = W15 m ρ c (Proc.devRef .tc main_arg12) := carry_host hostOps8
    _ = W14 m ρ c (Proc.devRef .tc main_arg12) := W15_of_ne m ρ c main_arg12 (by decide)
    _ = W13 m ρ c (Proc.devRef .tc main_arg12) := carry_host hostOps7
    _ = W12 m ρ c (Proc.devRef .tc main_arg12) := W13_of_ne m ρ c main_arg12 (by decide)
    _ = W11 m ρ c (Proc.devRef .tc main_arg12) := carry_host hostOps6
    _ = W10 m ρ c (Proc.devRef .tc main_arg12) := W11_of_ne m ρ c main_arg12 (by decide)
    _ = W9 m ρ c (Proc.devRef .tc main_arg12) := carry_host hostOps5
    _ = W8 m ρ c (Proc.devRef .tc main_arg12) := W9_of_ne m ρ c main_arg12 (by decide)
    _ = W7 m ρ c (Proc.devRef .tc main_arg12) := carry_host hostOps4
    _ = W6 m ρ c (Proc.devRef .tc main_arg12) := W7_of_ne m ρ c main_arg12 (by decide)
    _ = W5 m ρ c (Proc.devRef .tc main_arg12) := carry_host hostOps3
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := carry_host hostOps1
    _ = W1 m ρ c (Proc.devRef .tc main_arg12) := W2_of_ne m ρ c main_arg12 (by decide)
    _ = W0 m ρ c (Proc.devRef .tc main_arg12) := carry_host hostOps0
    _ = m ((c : Thread nD τ).loc main_arg12) := rfl

/-! ## Intermediate results at the later boundaries where they are read

Each intermediate result is written once, by the host operation or the region that produces it; the segments
crossed below come after that one and only read it. -/

theorem W2_v1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem W2_v3 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem W2_v25 (c : Dev nD) : W2 m ρ c (Proc.devRef .tc main_v25) = W1 m ρ c (Proc.devRef .tc main_v25) :=
  calc W2 m ρ c (Proc.devRef .tc main_v25)
    _ = W1 m ρ c (Proc.devRef .tc main_v25) := W2_of_ne m ρ c main_v25 (by decide)

theorem W2_v26 (c : Dev nD) : W2 m ρ c (Proc.devRef .tc main_v26) = W1 m ρ c (Proc.devRef .tc main_v26) :=
  calc W2 m ρ c (Proc.devRef .tc main_v26)
    _ = W1 m ρ c (Proc.devRef .tc main_v26) := W2_of_ne m ρ c main_v26 (by decide)

theorem W5_v1 (c : Dev nD) : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := carry_host hostOps1
    _ = W1 m ρ c (Proc.devRef .tc main_v1) := W2_v1 m ρ c

theorem W5_v3 (c : Dev nD) : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := carry_host hostOps1
    _ = W1 m ρ c (Proc.devRef .tc main_v3) := W2_v3 m ρ c

theorem W5_v25 (c : Dev nD) : W5 m ρ c (Proc.devRef .tc main_v25) = W1 m ρ c (Proc.devRef .tc main_v25) :=
  calc W5 m ρ c (Proc.devRef .tc main_v25)
    _ = W4 m ρ c (Proc.devRef .tc main_v25) := W5_of_ne m ρ c main_v25 (by decide)
    _ = W3 m ρ c (Proc.devRef .tc main_v25) := W4_of_ne m ρ c main_v25 (by decide)
    _ = W2 m ρ c (Proc.devRef .tc main_v25) := carry_host hostOps1
    _ = W1 m ρ c (Proc.devRef .tc main_v25) := W2_v25 m ρ c

theorem W5_v26 (c : Dev nD) : W5 m ρ c (Proc.devRef .tc main_v26) = W1 m ρ c (Proc.devRef .tc main_v26) :=
  calc W5 m ρ c (Proc.devRef .tc main_v26)
    _ = W4 m ρ c (Proc.devRef .tc main_v26) := W5_of_ne m ρ c main_v26 (by decide)
    _ = W3 m ρ c (Proc.devRef .tc main_v26) := W4_of_ne m ρ c main_v26 (by decide)
    _ = W2 m ρ c (Proc.devRef .tc main_v26) := carry_host hostOps1
    _ = W1 m ρ c (Proc.devRef .tc main_v26) := W2_v26 m ρ c

theorem W7_v1 (c : Dev nD) : W7 m ρ c (Proc.devRef .tc main_v1) = W1 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := carry_host hostOps3
    _ = W1 m ρ c (Proc.devRef .tc main_v1) := W5_v1 m ρ c

theorem W7_v3 (c : Dev nD) : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := carry_host hostOps3
    _ = W1 m ρ c (Proc.devRef .tc main_v3) := W5_v3 m ρ c

theorem W9_v1 (c : Dev nD) : W9 m ρ c (Proc.devRef .tc main_v1) = W1 m ρ c (Proc.devRef .tc main_v1) :=
  calc W9 m ρ c (Proc.devRef .tc main_v1)
    _ = W8 m ρ c (Proc.devRef .tc main_v1) := W9_of_ne m ρ c main_v1 (by decide)
    _ = W7 m ρ c (Proc.devRef .tc main_v1) := carry_host hostOps4
    _ = W1 m ρ c (Proc.devRef .tc main_v1) := W7_v1 m ρ c

theorem W9_v3 (c : Dev nD) : W9 m ρ c (Proc.devRef .tc main_v3) = W1 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := carry_host hostOps4
    _ = W1 m ρ c (Proc.devRef .tc main_v3) := W7_v3 m ρ c

theorem W3_v27 (c : Dev nD) : W3 m ρ c (Proc.devRef .tc main_v27) = W2 m ρ c (Proc.devRef .tc main_v27) :=
  calc W3 m ρ c (Proc.devRef .tc main_v27)
    _ = W2 m ρ c (Proc.devRef .tc main_v27) := carry_host hostOps1

theorem W6_v44 (c : Dev nD) : W6 m ρ c (Proc.devRef .tc main_v44) = W5 m ρ c (Proc.devRef .tc main_v44) :=
  calc W6 m ρ c (Proc.devRef .tc main_v44)
    _ = W5 m ρ c (Proc.devRef .tc main_v44) := carry_host hostOps3

theorem W14_v60 (c : Dev nD) : W14 m ρ c (Proc.devRef .tc main_v60) = W7 m ρ c (Proc.devRef .tc main_v60) :=
  calc W14 m ρ c (Proc.devRef .tc main_v60)
    _ = W13 m ρ c (Proc.devRef .tc main_v60) := carry_host hostOps7
    _ = W12 m ρ c (Proc.devRef .tc main_v60) := W13_of_ne m ρ c main_v60 (by decide)
    _ = W11 m ρ c (Proc.devRef .tc main_v60) := carry_host hostOps6
    _ = W10 m ρ c (Proc.devRef .tc main_v60) := W11_of_ne m ρ c main_v60 (by decide)
    _ = W9 m ρ c (Proc.devRef .tc main_v60) := carry_host hostOps5
    _ = W8 m ρ c (Proc.devRef .tc main_v60) := W9_of_ne m ρ c main_v60 (by decide)
    _ = W7 m ρ c (Proc.devRef .tc main_v60) := carry_host hostOps4

theorem W10_v72 (c : Dev nD) : W10 m ρ c (Proc.devRef .tc main_v72) = W9 m ρ c (Proc.devRef .tc main_v72) :=
  calc W10 m ρ c (Proc.devRef .tc main_v72)
    _ = W9 m ρ c (Proc.devRef .tc main_v72) := carry_host hostOps5

theorem W12_v84 (c : Dev nD) : W12 m ρ c (Proc.devRef .tc main_v84) = W11 m ρ c (Proc.devRef .tc main_v84) :=
  calc W12 m ρ c (Proc.devRef .tc main_v84)
    _ = W11 m ρ c (Proc.devRef .tc main_v84) := carry_host hostOps6

theorem W16_v86 (c : Dev nD) : W16 m ρ c (Proc.devRef .tc main_v86) = W13 m ρ c (Proc.devRef .tc main_v86) :=
  calc W16 m ρ c (Proc.devRef .tc main_v86)
    _ = W15 m ρ c (Proc.devRef .tc main_v86) := carry_host hostOps8
    _ = W14 m ρ c (Proc.devRef .tc main_v86) := W15_of_ne m ρ c main_v86 (by decide)
    _ = W13 m ρ c (Proc.devRef .tc main_v86) := carry_host hostOps7

theorem W16_v88 (c : Dev nD) : W16 m ρ c (Proc.devRef .tc main_v88) = W15 m ρ c (Proc.devRef .tc main_v88) :=
  calc W16 m ρ c (Proc.devRef .tc main_v88)
    _ = W15 m ρ c (Proc.devRef .tc main_v88) := carry_host hostOps8

end Cert.KernelIdeal.Val

end
-- ==== Proof.LibKeepDims.lean ====
/-
  Column forms of a kept reduced axis, read at an index given by coordinates.

  A row statistic of an `[a, b]` block (a mean, a variance) is computed as a lane sum `[a, b] → [a]`, viewed as a
  column `[a] → [a, 1]`, and spread back over the lanes `[a, 1] → [a, b]`. Here each of the three steps is read at an
  index written by its coordinates: the column view at `(i, u)` is the vector at `i`; the spread column at `(p, c)` is
  the column at `(p, 0)`; and, at the ideal values, the lane sum at `p` is `∑ k : Fin b` of row `p`. Also one column
  of a matrix (a unit-width slice along axis 1) read at `(p, u)`.
-/
import Idealize.ShloMosaic.PureOps.Ideal
import Idealize.ShloMosaic.PureOps.Ideal.Laws
import Idealize.ShloMosaic.Lib.ValueIdx
import Idealize.ShloMosaic.Lib.ValueLayout

noncomputable section

open scoped BigOperators

namespace Idealize.ShloMosaic.KeepDims

open Idealize.ShloMosaic Idealize.ShloMosaic.ValueIdx

variable {α : Type}

/-! ## The column view of a vector, and a column spread over the lanes -/

/-- An `[a]` vector viewed as a column `[a, 1]` reads, at `(i, u)`, the vector at `i`, whatever the unit coordinate
    `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Column `o` of an `[a, n]` matrix, cut out as an `[a, 1]` slice, reads at `(p, u)` the matrix at `(p, o)`. -/
theorem column_apply {a n : ℕ} (o : ℕ) (X : (⟨2, ![a, n]⟩ : Shape).Idx → α)
    (h : (⟨2, ![a, n]⟩ : Shape).Slices ![0, o] ⟨2, ![a, 1]⟩) (p : Fin a) (u : Fin 1) (k : Fin n) (hk : k.val = o) :
    extractStridedSlice ⟨2, ![a, 1]⟩ ![0, o] X h (ix2 p u) = X (ix2 p k) :=
  slice2_axis1_apply o X h p u k (by have : u.val = 0 := by omega
                                     omega)

/-! ## The lane sum of a block, at the ideal values -/

/-- The sum over the lanes (axis 1) of an `[a, b]` block, read at row `p`, is `∑ k : Fin b` of the block's row `p`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext ax
  match ax with
  | ⟨0, _⟩ => exact Fin.ext rfl
  | ⟨1, _⟩ => exact Fin.ext rfl

end Idealize.ShloMosaic.KeepDims

end
-- ==== Proof.ChainHost.lean ====
/-
  The host stretches of the idealized kernel program, read against the reference's stages.
  Between its regions the kernel program applies to the same operands the same host operations as the reference
  (the slices of the edge list, the degree count and its inverse square root, the edge and self coefficients, the
  gathers of source rows, their scaling and the segment sums over target nodes), so each stretch's results are the
  reference's stages of the launch arguments as soon as the region outputs it reads are. The reshapes that hand a
  coefficient vector to a region as a column and a bias vector as a row are read at an entry.
-/
import proofs.«138299_j73512660238656_1_alg».proof.Proof.Gen.KernelIdeal.Frame
import proofs.«138299_j73512660238656_1_alg».proof.Proof.Gen.ReferenceIdeal.Read
import proofs.«138299_j73512660238656_1_alg».proof.Proof.Carry
import proofs.«138299_j73512660238656_1_alg».proof.Proof.LibKeepDims
import Idealize.ShloMosaic.Lib.ValueIdx
import Idealize.ShloMosaic.Lib.ValueLayout
import Idealize.ShloMosaic.Lib.StableHlo.Run

noncomputable section

namespace Cert.KernelIdeal.Val

open Cert.KernelIdeal Cert.KernelIdeal.Gen Idealize.ShloMosaic Idealize.ShloMosaic.TcCoe Idealize.ShloMosaic.ValueIdx Idealize.ShloMosaic.StableHlo
open Cert.ReferenceIdeal.Read

variable (m : (ℓ : Loc nD τ sig) → Buf (Elt Ideal) ℓ) (ρ : Dev nD → PrngReg) (c : Dev nD)

/-! ## The launch arguments, typed as the reference's stages take them -/
abbrev a0 : (⟨Cert.ReferenceIdeal.S100000x128, .f32⟩ : BufTy).Contents (Elt Ideal) := m ((c : Thread nD τ).loc main_arg0)
abbrev a1 : (⟨Cert.ReferenceIdeal.S2x1600000, .i32⟩ : BufTy).Contents (Elt Ideal) := m ((c : Thread nD τ).loc main_arg1)
abbrev a2 : (⟨Cert.ReferenceIdeal.S128x128, .f32⟩ : BufTy).Contents (Elt Ideal) := m ((c : Thread nD τ).loc main_arg2)
abbrev a3 : (⟨Cert.ReferenceIdeal.S128, .f32⟩ : BufTy).Contents (Elt Ideal) := m ((c : Thread nD τ).loc main_arg3)
abbrev a4 : (⟨Cert.ReferenceIdeal.S128x128, .f32⟩ : BufTy).Contents (Elt Ideal) := m ((c : Thread nD τ).loc main_arg4)
abbrev a5 : (⟨Cert.ReferenceIdeal.S128, .f32⟩ : BufTy).Contents (Elt Ideal) := m ((c : Thread nD τ).loc main_arg5)
abbrev a6 : (⟨Cert.ReferenceIdeal.S128x128, .f32⟩ : BufTy).Contents (Elt Ideal) := m ((c : Thread nD τ).loc main_arg6)
abbrev a7 : (⟨Cert.ReferenceIdeal.S128, .f32⟩ : BufTy).Contents (Elt Ideal) := m ((c : Thread nD τ).loc main_arg7)
abbrev a8 : (⟨Cert.ReferenceIdeal.S128x128, .f32⟩ : BufTy).Contents (Elt Ideal) := m ((c : Thread nD τ).loc main_arg8)
abbrev a9 : (⟨Cert.ReferenceIdeal.S128, .f32⟩ : BufTy).Contents (Elt Ideal) := m ((c : Thread nD τ).loc main_arg9)
abbrev a10 : (⟨Cert.ReferenceIdeal.S128x128, .f32⟩ : BufTy).Contents (Elt Ideal) := m ((c : Thread nD τ).loc main_arg10)
abbrev a11 : (⟨Cert.ReferenceIdeal.S128, .f32⟩ : BufTy).Contents (Elt Ideal) := m ((c : Thread nD τ).loc main_arg11)
abbrev a12 : (⟨Cert.ReferenceIdeal.S128x128, .f32⟩ : BufTy).Contents (Elt Ideal) := m ((c : Thread nD τ).loc main_arg12)
abbrev a13 : (⟨Cert.ReferenceIdeal.S128, .f32⟩ : BufTy).Contents (Elt Ideal) := m ((c : Thread nD τ).loc main_arg13)

/-- Row p of a coefficient column. -/
def colAt (x : (⟨⟨2, ![100000, 1]⟩, .f32⟩ : BufTy).Contents (Elt Ideal)) (p : Fin 100000) : Ideal .f32 := x (ix2 p (0 : Fin 1))
/-- Entry q of a bias row. -/
def rowAt (x : (⟨⟨2, ![1, 128]⟩, .f32⟩ : BufTy).Contents (Elt Ideal)) (q : Fin 128) : Ideal .f32 := x (ix2 (0 : Fin 1) q)

/-! ## The first stretch: the edge list's two rows, the edge coefficients and the self coefficients -/

theorem h1_v1 :
    W1 m ρ c (Proc.devRef .tc main_v1) = val_main_v1 (F := Ideal) (a1 m c) := by
  show StableHlo.after hostOps0 (W0 m ρ c) (Proc.devRef .tc main_v1) = _
  unfold hostOps0
  after_results_simp
  rfl

theorem h1_v3 :
    W1 m ρ c (Proc.devRef .tc main_v3) = val_main_v3 (F := Ideal) (a1 m c) := by
  show StableHlo.after hostOps0 (W0 m ρ c) (Proc.devRef .tc main_v3) = _
  unfold hostOps0
  after_results_simp
  rfl

theorem h1_v25 :
    W1 m ρ c (Proc.devRef .tc main_v25) = val_main_v25 (F := Ideal) (a1 m c) := by
  show StableHlo.after hostOps0 (W0 m ρ c) (Proc.devRef .tc main_v25) = _
  unfold hostOps0
  after_results_simp
  rfl

theorem h1_v26 :
    W1 m ρ c (Proc.devRef .tc main_v26) = val_main_v26 (F := Ideal) (a1 m c) := by
  show StableHlo.after hostOps0 (W0 m ρ c) (Proc.devRef .tc main_v26) = _
  unfold hostOps0
  after_results_simp
  rfl

/-! ## The stretch before the first aggregation step: the scaled segment sum of the projected rows, the coefficient
column and the bias row -/

theorem h3_v40 (h27 : W2 m ρ c (Proc.devRef .tc main_v27) = val_main_v27 (F := Ideal) (a0 m c) (a2 m c)) :
    W3 m ρ c (Proc.devRef .tc main_v40) = val_main_v40 (F := Ideal) (a0 m c) (a1 m c) (a2 m c) := by
  show StableHlo.after hostOps1 (W2 m ρ c) (Proc.devRef .tc main_v40) = _
  unfold hostOps1
  after_results_simp
  rw [h27, W2_v1 m ρ c, W2_v3 m ρ c, W2_v25 m ρ c, h1_v1 m ρ c, h1_v3 m ρ c, h1_v25 m ρ c]
  rfl

theorem h3_v41 (p : Fin 100000) : colAt (W3 m ρ c (Proc.devRef .tc main_v41)) p = val_main_v26 (F := Ideal) (a1 m c) (ix1 p) := by
  have e : W3 m ρ c (Proc.devRef .tc main_v41) = shapeCast _ (W2 m ρ c (Proc.devRef .tc main_v26)) shapeCasts_S100000_S100000x1 := by
    show StableHlo.after hostOps1 (W2 m ρ c) (Proc.devRef .tc main_v41) = _
    unfold hostOps1
    after_results_simp
    rfl
  rw [e, W2_v26 m ρ c, h1_v26 m ρ c]
  exact KeepDims.shapeCast_a_a1_apply _ _ p 0

theorem h3_v42 (q : Fin 128) : rowAt (W3 m ρ c (Proc.devRef .tc main_v42)) q = a3 m c (ix1 q) := by
  have e : W3 m ρ c (Proc.devRef .tc main_v42) = shapeCast _ (W2 m ρ c (Proc.devRef .tc main_arg3)) shapeCasts_S128_S1x128 := by
    show StableHlo.after hostOps1 (W2 m ρ c) (Proc.devRef .tc main_v42) = _
    unfold hostOps1
    after_results_simp
    rfl
  rw [e, W2_arg3 m ρ c]
  exact shapeCast_a_1a_apply _ _ 0 q

/-! ## The stretch before the second aggregation step -/

theorem h6_v57 (h44 : W5 m ρ c (Proc.devRef .tc main_v44) = val_main_v49 (F := Ideal) (a0 m c) (a1 m c) (a2 m c) (a3 m c) (a4 m c)) :
    W6 m ρ c (Proc.devRef .tc main_v57) = val_main_v62 (F := Ideal) (a0 m c) (a1 m c) (a2 m c) (a3 m c) (a4 m c) := by
  show StableHlo.after hostOps3 (W5 m ρ c) (Proc.devRef .tc main_v57) = _
  unfold hostOps3
  after_results_simp
  rw [h44, W5_v1 m ρ c, W5_v3 m ρ c, W5_v25 m ρ c, h1_v1 m ρ c, h1_v3 m ρ c, h1_v25 m ρ c]
  rfl

theorem h6_v58 (p : Fin 100000) : colAt (W6 m ρ c (Proc.devRef .tc main_v58)) p = val_main_v26 (F := Ideal) (a1 m c) (ix1 p) := by
  have e : W6 m ρ c (Proc.devRef .tc main_v58) = shapeCast _ (W5 m ρ c (Proc.devRef .tc main_v26)) shapeCasts_S100000_S100000x1 := by
    show StableHlo.after hostOps3 (W5 m ρ c) (Proc.devRef .tc main_v58) = _
    unfold hostOps3
    after_results_simp
    rfl
  rw [e, W5_v26 m ρ c, h1_v26 m ρ c]
  exact KeepDims.shapeCast_a_a1_apply _ _ p 0

theorem h6_v59 (q : Fin 128) : rowAt (W6 m ρ c (Proc.devRef .tc main_v59)) q = a5 m c (ix1 q) := by
  have e : W6 m ρ c (Proc.devRef .tc main_v59) = shapeCast _ (W5 m ρ c (Proc.devRef .tc main_arg5)) shapeCasts_S128_S1x128 := by
    show StableHlo.after hostOps3 (W5 m ρ c) (Proc.devRef .tc main_v59) = _
    unfold hostOps3
    after_results_simp
    rfl
  rw [e, W5_arg5 m ρ c]
  exact shapeCast_a_1a_apply _ _ 0 q

/-! ## The stretches of the second branch: the plain segment sums of source rows -/

theorem h8_v70 :
    W8 m ρ c (Proc.devRef .tc main_v70) = val_main_v79 (F := Ideal) (a0 m c) (a1 m c) := by
  show StableHlo.after hostOps4 (W7 m ρ c) (Proc.devRef .tc main_v70) = _
  unfold hostOps4
  after_results_simp
  rw [W7_arg0 m ρ c, W7_v1 m ρ c, W7_v3 m ρ c, h1_v1 m ρ c, h1_v3 m ρ c]
  rfl

theorem h8_v71 (q : Fin 128) : rowAt (W8 m ρ c (Proc.devRef .tc main_v71)) q = a7 m c (ix1 q) := by
  have e : W8 m ρ c (Proc.devRef .tc main_v71) = shapeCast _ (W7 m ρ c (Proc.devRef .tc main_arg7)) shapeCasts_S128_S1x128 := by
    show StableHlo.after hostOps4 (W7 m ρ c) (Proc.devRef .tc main_v71) = _
    unfold hostOps4
    after_results_simp
    rfl
  rw [e, W7_arg7 m ρ c]
  exact shapeCast_a_1a_apply _ _ 0 q

theorem h10_v82 (h72 : W9 m ρ c (Proc.devRef .tc main_v72) = val_main_v84 (F := Ideal) (a0 m c) (a1 m c) (a6 m c) (a7 m c)) :
    W10 m ρ c (Proc.devRef .tc main_v82) = val_main_v94 (F := Ideal) (a0 m c) (a1 m c) (a6 m c) (a7 m c) := by
  show StableHlo.after hostOps5 (W9 m ρ c) (Proc.devRef .tc main_v82) = _
  unfold hostOps5
  after_results_simp
  rw [h72, W9_v1 m ρ c, W9_v3 m ρ c, h1_v1 m ρ c, h1_v3 m ρ c]
  rfl

theorem h10_v83 (q : Fin 128) : rowAt (W10 m ρ c (Proc.devRef .tc main_v83)) q = a9 m c (ix1 q) := by
  have e : W10 m ρ c (Proc.devRef .tc main_v83) = shapeCast _ (W9 m ρ c (Proc.devRef .tc main_arg9)) shapeCasts_S128_S1x128 := by
    show StableHlo.after hostOps5 (W9 m ρ c) (Proc.devRef .tc main_v83) = _
    unfold hostOps5
    after_results_simp
    rfl
  rw [e, W9_arg9 m ρ c]
  exact shapeCast_a_1a_apply _ _ 0 q

/-! ## The bias rows of the three last regions -/

theorem h12_v85 (q : Fin 128) : rowAt (W12 m ρ c (Proc.devRef .tc main_v85)) q = a11 m c (ix1 q) := by
  have e : W12 m ρ c (Proc.devRef .tc main_v85) = shapeCast _ (W11 m ρ c (Proc.devRef .tc main_arg11)) shapeCasts_S128_S1x128 := by
    show StableHlo.after hostOps6 (W11 m ρ c) (Proc.devRef .tc main_v85) = _
    unfold hostOps6
    after_results_simp
    rfl
  rw [e, W11_arg11 m ρ c]
  exact shapeCast_a_1a_apply _ _ 0 q

theorem h14_v87 (q : Fin 128) : rowAt (W14 m ρ c (Proc.devRef .tc main_v87)) q = a11 m c (ix1 q) := by
  have e : W14 m ρ c (Proc.devRef .tc main_v87) = shapeCast _ (W13 m ρ c (Proc.devRef .tc main_arg11)) shapeCasts_S128_S1x128 := by
    show StableHlo.after hostOps7 (W13 m ρ c) (Proc.devRef .tc main_v87) = _
    unfold hostOps7
    after_results_simp
    rfl
  rw [e, W13_arg11 m ρ c]
  exact shapeCast_a_1a_apply _ _ 0 q

theorem h16_v89 (q : Fin 128) : rowAt (W16 m ρ c (Proc.devRef .tc main_v89)) q = a13 m c (ix1 q) := by
  have e : W16 m ρ c (Proc.devRef .tc main_v89) = shapeCast _ (W15 m ρ c (Proc.devRef .tc main_arg13)) shapeCasts_S128_S1x128 := by
    show StableHlo.after hostOps8 (W15 m ρ c) (Proc.devRef .tc main_v89) = _
    unfold hostOps8
    after_results_simp
    rfl
  rw [e, W15_arg13 m ρ c]
  exact shapeCast_a_1a_apply _ _ 0 q

end Cert.KernelIdeal.Val

end
-- ==== Proof.Spec.lean ====
/-
  The entry formulas of the program's five kinds of region, at the ideal values (a float is an extended real).
  Each is one entry (p, q) of a [100000, 128] array as a function of whole arrays: a row times a 128×128 matrix;
  the same plus a bias row; the same of the sum of two arrays; and the aggregation step — the aggregate plus a
  per-row coefficient times the projected row plus the bias row — with and without the positive part.
-/
import Idealize.ShloMosaic.PureOps.Ideal
import Idealize.ShloMosaic.PureOps.Ideal.Laws
import Idealize.ShloMosaic.Lib.ValueIdx

noncomputable section

open scoped BigOperators

namespace Cert.KernelIdeal.Val

open Idealize.ShloMosaic Idealize.ShloMosaic.ValueIdx

/-- Entry (p, q) of an array of 100000 rows. -/
def entryAt (x : (⟨⟨2, ![100000, 128]⟩, .f32⟩ : BufTy).Contents (Elt Ideal)) (p : Fin 100000) (q : Fin 128) : Ideal .f32 := x (ix2 p q)

/-- Row p of x times column q of w. -/
def mmAt (x : (⟨⟨2, ![100000, 128]⟩, .f32⟩ : BufTy).Contents (Elt Ideal)) (w : (⟨⟨2, ![128, 128]⟩, .f32⟩ : BufTy).Contents (Elt Ideal)) (p : Fin 100000) (q : Fin 128) : Ideal .f32 :=
  ∑ k : Fin 128, x (ix2 p k) * w (ix2 k q)

/-- Row p of x times column q of w, plus entry q of the bias row. -/
def linAt (x : (⟨⟨2, ![100000, 128]⟩, .f32⟩ : BufTy).Contents (Elt Ideal)) (w : (⟨⟨2, ![128, 128]⟩, .f32⟩ : BufTy).Contents (Elt Ideal)) (b : (⟨⟨2, ![1, 128]⟩, .f32⟩ : BufTy).Contents (Elt Ideal)) (p : Fin 100000) (q : Fin 128) : Ideal .f32 :=
  FloatOps.addf (F := Ideal) (φ := .f32) (∑ k : Fin 128, x (ix2 p k) * w (ix2 k q)) (b (ix2 (0 : Fin 1) q))

/-- Row p of x1 + x2 times column q of w, plus entry q of the bias row. -/
def linAddAt (x1 x2 : (⟨⟨2, ![100000, 128]⟩, .f32⟩ : BufTy).Contents (Elt Ideal)) (w : (⟨⟨2, ![128, 128]⟩, .f32⟩ : BufTy).Contents (Elt Ideal)) (b : (⟨⟨2, ![1, 128]⟩, .f32⟩ : BufTy).Contents (Elt Ideal)) (p : Fin 100000) (q : Fin 128) : Ideal .f32 :=
  FloatOps.addf (F := Ideal) (φ := .f32) (∑ k : Fin 128, FloatOps.addf (F := Ideal) (φ := .f32) (x1 (ix2 p k)) (x2 (ix2 p k)) * w (ix2 k q)) (b (ix2 (0 : Fin 1) q))

/-- The aggregate's entry plus row p's coefficient times the projected entry, plus entry q of the bias row. -/
def combAt (agg y : (⟨⟨2, ![100000, 128]⟩, .f32⟩ : BufTy).Contents (Elt Ideal)) (sn : (⟨⟨2, ![100000, 1]⟩, .f32⟩ : BufTy).Contents (Elt Ideal)) (b : (⟨⟨2, ![1, 128]⟩, .f32⟩ : BufTy).Contents (Elt Ideal)) (p : Fin 100000) (q : Fin 128) : Ideal .f32 :=
  FloatOps.addf (F := Ideal) (φ := .f32) (FloatOps.addf (F := Ideal) (φ := .f32) (agg (ix2 p q)) (FloatOps.mulf (F := Ideal) (φ := .f32) (sn (ix2 p (0 : Fin 1))) (y (ix2 p q)))) (b (ix2 (0 : Fin 1) q))

/-- The positive part of `combAt`. -/
def combReluAt (agg y : (⟨⟨2, ![100000, 128]⟩, .f32⟩ : BufTy).Contents (Elt Ideal)) (sn : (⟨⟨2, ![100000, 1]⟩, .f32⟩ : BufTy).Contents (Elt Ideal)) (b : (⟨⟨2, ![1, 128]⟩, .f32⟩ : BufTy).Contents (Elt Ideal)) (p : Fin 100000) (q : Fin 128) : Ideal .f32 :=
  FloatOps.maximumf (F := Ideal) (φ := .f32) (combAt agg y sn b p q) (FloatOps.ofBits (F := Ideal) .f32 0x00000000#32)

end Cert.KernelIdeal.Val

end
-- ==== Proof.LibProductEntry.lean ====
/-
  A matrix product read at an entry.

  Both programs contract the second axis of a left matrix `[M, K]` with the first axis of a right matrix `[K, N]`.
  At the ideal values the product's entry `(p, q)` is `∑ k : Fin K, x (p, k) * w (k, q)`, whether it is the host's
  product or the kernel's matrix multiplication onto a zero accumulator. The statement is proved once for any
  dimension record whose four coordinate maps are the expected ones; each record of the two programs then supplies
  those four facts.
-/
import Idealize.ShloMosaic.PureOps.Ideal
import Idealize.ShloMosaic.PureOps.Ideal.Laws
import Idealize.ShloMosaic.Lib.ValueIdx

noncomputable section

open scoped BigOperators

namespace Cert.ProductEntry

open Idealize.ShloMosaic Idealize.ShloMosaic.ValueIdx

/-- The sum over a one-axis contraction shape, re-indexed by the axis' coordinate: for a record whose left index is
    `(p, k)` and right index `(k, q)` at output `(p, q)` and contraction position `k`. -/
theorem sum_apply {M K N : ℕ} (D : DotDims ⟨2, ![M, K]⟩ ⟨2, ![K, N]⟩ ⟨2, ![M, N]⟩)
    (hr : D.contr.rank = 1) (hs : D.contr.size ⟨0, by omega⟩ = K)
    (hl0 : ∀ i k, (D.lhsIdx i k 0).val = (i 0).val)
    (hl1 : ∀ i k, (D.lhsIdx i k 1).val = (k ⟨0, by omega⟩).val)
    (hr0 : ∀ i k, (D.rhsIdx i k 0).val = (k ⟨0, by omega⟩).val)
    (hr1 : ∀ i k, (D.rhsIdx i k 1).val = (i 1).val)
    (x : (⟨2, ![M, K]⟩ : Shape).Idx → EReal) (w : (⟨2, ![K, N]⟩ : Shape).Idx → EReal) (p : Fin M) (q : Fin N) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.ProductEntry

end
-- ==== Proof.Region0.lean ====
/-
  Region 0 of the program, read at an entry: every entry (p, q) of the array the region leaves is
  the rows of the left array times the 128×128 right array, of the arrays the region finds at its entry.
-/
import proofs.«138299_j73512660238656_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«138299_j73512660238656_1_alg».proof.Proof.LibProductEntry
import proofs.«138299_j73512660238656_1_alg».proof.Proof.LibKeepDims
import proofs.«138299_j73512660238656_1_alg».proof.Proof.Spec

noncomputable section

open scoped BigOperators

namespace Cert.KernelIdeal.Val.R0

open Cert.KernelIdeal Cert.KernelIdeal.Gen Idealize.ShloMosaic Idealize.ShloMosaic.TcCoe Idealize.ShloMosaic.ValueIdx

-- the TensorCore's buffer contents when the region is entered
variable (V : (c : Dev nD) → (b : Ref sig .tc) → Buf (Elt Ideal) ((c : Thread nD τ).loc b))

/-! ## The body's stored value at an entry of a row block -/

/-- The left index of the product at output `i` and contraction position `k` keeps the output's row, -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- and takes the contraction position as its column; -/
theorem lhs_col (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- the right index takes the contraction position as its row -/
theorem rhs_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- and keeps the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The stored value at entry `(p, q)` of a row block: row `p` of the block times column `q` of the weight
    (the changes of format are the identity and the product onto the zero accumulator is the exact sum). -/
theorem pay_apply (x : FVec Ideal S5000x128 .f32) (w : FVec Ideal S128x128 .f32) (p : Fin 5000) (q : Fin 128) :
    k0_pay1 (F := Ideal) x w (ix2 p q) = ∑ k : Fin 128, x (ix2 p k) * w (ix2 k q) := by
  unfold k0_pay1
  refine (Ideal.matmul_constant_zero_apply dot_S5000x128_S128x128_S5000x128_1_0_0_1_n_n none _ _ (ix2 p q)).trans ?_
  exact Cert.ProductEntry.sum_apply dot_S5000x128_S128x128_S5000x128_1_0_0_1_n_n rfl rfl lhs_row lhs_col rhs_row rhs_col x w p q

/-! ## From the blocks to the array -/

/-- The region's output array as one function of the arrays it reads, entry by entry. -/
def whole (A : (⟨⟨2, ![100000, 128]⟩, .f32⟩ : BufTy).Contents (Elt Ideal)) (W : (⟨⟨2, ![128, 128]⟩, .f32⟩ : BufTy).Contents (Elt Ideal)) : (⟨2, ![100000, 128]⟩ : Shape).Idx → Ideal .f32 :=
  fun i => mmAt A W (i 0) (i 1)

/-- A block's entry is the whole array's, when the block's row `p` is the array's row `r`, its column `q` the array's
    column `s`, and the weight is read whole. -/
theorem block_entry (A : (⟨⟨2, ![100000, 128]⟩, .f32⟩ : BufTy).Contents (Elt Ideal)) (W : (⟨⟨2, ![128, 128]⟩, .f32⟩ : BufTy).Contents (Elt Ideal)) (x : FVec Ideal S5000x128 .f32) (w : FVec Ideal S128x128 .f32) (p : Fin 5000) (q : Fin 128) (r : Fin 100000) (s : Fin 128)
    (hx : ∀ k : Fin 128, x (ix2 p k) = A (ix2 r k)) (hw : ∀ k : Fin 128, w (ix2 k q) = W (ix2 k s)) :
    ∑ k : Fin 128, x (ix2 p k) * w (ix2 k q) = mmAt A W r s := by
  unfold mmAt
  rw [Finset.sum_congr rfl fun k _ => by rw [hx k, hw k]]

theorem off_zero : (![0, 0] : Fin 2 → Nat) = fun _ => 0 := funext fun a => by fin_cases a <;> rfl

/-- The block indices of the windows, decided over the twenty points: the left and the output windows take row block
    `t`, the weight window is whole. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

set_option maxHeartbeats 400000 in
/-- What point `t` writes back is block `t` of `whole` of the arrays the region finds. -/
theorem flushed_eq (c : Dev nD) (t : Fin cfg0.N) :
    (dat0 (F := Ideal) V c).flushed 2 t
      = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero off_zero]
  simp only [View.ld_unit_zero (S := S5000x128) off_zero, View.ld_unit_zero (S := S128x128) off_zero]
  obtain ⟨e00, e01, e10, e11, eo0, eo1⟩ := idx_facts t
  funext j
  obtain ⟨p, q, rfl⟩ : ∃ (p : Fin 5000) (q : Fin 128), j = ix2 p q := ⟨j 0, j 1, eq_ix2 j⟩
  refine (pay_apply (iblk0 V c 0 t) (iblk0 V c 1 t) p q).trans ?_
  refine (block_entry (V c main_arg0) (V c main_arg2) (iblk0 V c 0 t) (iblk0 V c 1 t) p q
    (((cfg0.win 2).blk t).view.emb (ix2 p q) 0) (((cfg0.win 2).blk t).view.emb (ix2 p q) 1) (fun k => ?_) (fun k => ?_)).trans ?_
  · show V c main_arg0 (((cfg0.win 0).blk t).view.emb (ix2 p k)) = V c main_arg0 _
    refine congrArg (V c main_arg0) ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · show V c main_arg2 (((cfg0.win 1).blk t).view.emb (ix2 k q)) = V c main_arg2 _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  · rfl

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Row `r` lies in the block of point `r / 5000`: the twenty row blocks cover the array. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e00, e01, e10, e11, eo0, eo1⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array after the twenty write-backs is `whole` of the arrays the region finds. -/
theorem final (c : Dev nD) :
    (dat0 (F := Ideal) V c).arrAt 2 cfg0.N = whole (V c main_arg0) (V c main_arg2) :=
  (dat0 V c).arrAt_eq_of_cover 2 (whole (V c main_arg0) (V c main_arg2)) (fun t _ => flushed_eq V c t) covered

end Cert.KernelIdeal.Val.R0

namespace Cert.KernelIdeal.Val

open Cert.KernelIdeal Cert.KernelIdeal.Gen Idealize.ShloMosaic Idealize.ShloMosaic.TcCoe Idealize.ShloMosaic.ValueIdx

-- the TensorCore's buffer contents when the region is entered
variable (V : (c : Dev nD) → (b : Ref sig .tc) → Buf (Elt Ideal) ((c : Thread nD τ).loc b))

/-- Entry (p, q) of region 0's output array after its twenty row blocks are written back. -/
theorem region0_apply (c : Dev nD) (p : Fin 100000) (q : Fin 128) :
    entryAt ((dat0 (F := Ideal) V c).arrAt 2 cfg0.N) p q = mmAt (V c main_arg0) (V c main_arg2) p q := by
  unfold entryAt
  rw [R0.final V c]
  rfl

end Cert.KernelIdeal.Val

end
-- ==== Proof.Region1.lean ====
/-
  Region 1 of the program, read at an entry: every entry (p, q) of the array the region leaves is
  the positive part of the aggregate plus the per-row coefficient times the projected rows plus the bias row, of the arrays the region finds at its entry.
-/
import proofs.«138299_j73512660238656_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«138299_j73512660238656_1_alg».proof.Proof.LibProductEntry
import proofs.«138299_j73512660238656_1_alg».proof.Proof.LibKeepDims
import proofs.«138299_j73512660238656_1_alg».proof.Proof.Spec

noncomputable section

open scoped BigOperators

namespace Cert.KernelIdeal.Val

open Cert.KernelIdeal Cert.KernelIdeal.Gen Idealize.ShloMosaic Idealize.ShloMosaic.TcCoe Idealize.ShloMosaic.ValueIdx

-- the TensorCore's buffer contents when the region is entered
variable (V : (c : Dev nD) → (b : Ref sig .tc) → Buf (Elt Ideal) ((c : Thread nD τ).loc b))

namespace R1

/-- The zero offsets of a whole-block access, as a constant function. -/
theorem zero_offsets : (![0, 0] : Fin 2 → Nat) = fun _ => 0 := funext fun a => by fin_cases a <;> rfl

/-- One entry of the body's result on a block of 5000 rows: the larger of zero and the following sum — entry (p, q)
    of the aggregate block, plus row p's coefficient (the one entry of row p of the coefficient column) times entry
    (p, q) of the projected block, plus entry q of the bias row. The casts are between equal shapes; the column is
    spread over the 128 lanes, the bias row over the 5000 rows, and the zero over the whole block. -/
theorem body_entry (x0 : FVec Ideal S5000x128 .f32) (x2 : FVec Ideal S5000x1 .f32) (x1 : FVec Ideal S5000x128 .f32)
    (x3 : FVec Ideal S1x128 .f32) (p : Fin 5000) (q : Fin 128) :
    k1_pay1 x0 x2 x1 x3 (ix2 p q)
      = FloatOps.maximumf (FloatOps.addf (FloatOps.addf (x0 (ix2 p q)) (FloatOps.mulf (x2 (ix2 p (0 : Fin 1))) (x1 (ix2 p q))))
          (x3 (ix2 (0 : Fin 1) q))) (FloatOps.ofBits (F := Ideal) .f32 0x00000000#32) := by
  unfold k1_pay1
  simp only [shapeCast_self]
  show FloatOps.maximumf (FloatOps.addf (FloatOps.addf (x0 (ix2 p q)) (FloatOps.mulf (broadcastTo S5000x128 x2 broadcasts_S5000x1_S5000x128 (ix2 p q)) (x1 (ix2 p q))))
      (broadcastTo S5000x128 x3 broadcasts_S1x128_S5000x128 (ix2 p q))) (FloatOps.ofBits (F := Ideal) .f32 0x00000000#32) = _
  rw [KeepDims.broadcastTo_a1_ab_apply, broadcastTo_1b_ab_apply]

/-- The whole output array as one function of the four arrays the region reads: at row r and lane l, the larger of
    zero and the aggregate's entry plus row r's coefficient times the projected entry, plus the bias row's entry l. -/
def combined (agg : FVec Ideal S100000x128 .f32) (coef : FVec Ideal S100000x1 .f32) (proj : FVec Ideal S100000x128 .f32)
    (bias : FVec Ideal S1x128 .f32) : FVec Ideal S100000x128 .f32 := fun i =>
  FloatOps.maximumf (FloatOps.addf (FloatOps.addf (agg i) (FloatOps.mulf (coef (ix2 (i 0 : Fin 100000) (0 : Fin 1))) (proj i)))
    (bias (ix2 (0 : Fin 1) (i 1 : Fin 128)))) (FloatOps.ofBits (F := Ideal) .f32 0x00000000#32)

/-- The block indices at each of the twenty grid points: the three row-blocked inputs and the output are at
    block (t, 0), the bias row at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point t is its rows 5000·t … 5000·t + 4999: entry y of the block is the array's entry
    at row 5000·t + y₀, lane y₁. -/
theorem agg_block_apply (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v40 : FVec Ideal S100000x128 .f32) i := by
  obtain ⟨e0, e1, -⟩ := block_indices t
  unfold iblk1
  rw [View.read_apply]
  show V c main_v40 _ = V c main_v40 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- The projected rows' block at point t is rows 5000·t … 5000·t + 4999 of the projected array. -/
theorem proj_block_apply (c : Dev nD) (t : Fin cfg1.N) (y : S5000x128.Idx) (i : S100000x128.Idx)
    (h0 : (i 0).val = t.val * 5000 + (y 0).val) (h1 : (i 1).val = (y 1).val) :
    (iblk1 V c 1 t : Vec Ideal S5000x128 .f32) y = (V c main_v27 : FVec Ideal S100000x128 .f32) i := by
  obtain ⟨-, -, e0, e1, -⟩ := block_indices t
  unfold iblk1
  rw [View.read_apply]
  show V c main_v27 _ = V c main_v27 _
  congr 1
  funext a
  apply Fin.ext
  match a with
  | ⟨0, _⟩ => show win1_1.index t 0 * 5000 + 1 * (y 0).val = (i 0).val; rw [e0, h0]; omega
  | ⟨1, _⟩ => show win1_1.index t 1 * 128 + 1 * (y 1).val = (i 1).val; rw [e1, h1]; omega

/-- The coefficient column's block at point t is its rows 5000·t … 5000·t + 4999. -/
theorem coef_block_apply (c : Dev nD) (t : Fin cfg1.N) (y : S5000x1.Idx) (i : S100000x1.Idx)
    (h0 : (i 0).val = t.val * 5000 + (y 0).val) (h1 : (i 1).val = (y 1).val) :
    (iblk1 V c 2 t : Vec Ideal S5000x1 .f32) y = (V c main_v41 : FVec Ideal S100000x1 .f32) i := by
  obtain ⟨-, -, -, -, e0, e1, -⟩ := block_indices t
  unfold iblk1
  rw [View.read_apply]
  show V c main_v41 _ = V c main_v41 _
  congr 1
  funext a
  apply Fin.ext
  match a with
  | ⟨0, _⟩ => show win1_2.index t 0 * 5000 + 1 * (y 0).val = (i 0).val; rw [e0, h0]; omega
  | ⟨1, _⟩ => show win1_2.index t 1 * 1 + 1 * (y 1).val = (i 1).val; rw [e1, h1]; omega

/-- The bias row's block is the whole row at every point. -/
theorem bias_block_apply (c : Dev nD) (t : Fin cfg1.N) (y : S1x128.Idx) :
    (iblk1 V c 3 t : Vec Ideal S1x128 .f32) y = (V c main_v42 : FVec Ideal S1x128 .f32) y := by
  obtain ⟨-, -, -, -, -, -, e0, e1, -⟩ := block_indices t
  unfold iblk1
  rw [View.read_apply]
  show V c main_v42 _ = V c main_v42 _
  congr 1
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega

/-- The body's result at point t, at entry y of the block, is `combined` of the four arrays at row 5000·t + y₀,
    lane y₁: each loaded block is the matching rows of its array. -/
theorem body_at_point (c : Dev nD) (t : Fin cfg1.N) (y : S5000x128.Idx) (i : S100000x128.Idx)
    (h0 : (i 0).val = t.val * 5000 + (y 0).val) (h1 : (i 1).val = (y 1).val) :
    k1_pay1 (iblk1 V c 0 t) (iblk1 V c 2 t) (iblk1 V c 1 t) (iblk1 V c 3 t) y
      = combined (V c main_v40) (V c main_v41) (V c main_v27) (V c main_v42) i := by
  obtain ⟨p, q, rfl⟩ : ∃ (p : Fin 5000) (q : Fin 128), y = ix2 p q := ⟨y 0, y 1, eq_ix2 y⟩
  refine (body_entry (iblk1 V c 0 t) (iblk1 V c 2 t) (iblk1 V c 1 t) (iblk1 V c 3 t) p q).trans ?_
  rw [agg_block_apply V c t (ix2 p q) i h0 h1, proj_block_apply V c t (ix2 p q) i h0 h1,
    coef_block_apply V c t (ix2 p (0 : Fin 1)) (ix2 (i 0 : Fin 100000) (0 : Fin 1)) h0 rfl,
    bias_block_apply V c t (ix2 (0 : Fin 1) q)]
  have hq : (i 1 : Fin 128) = q := Fin.ext h1
  unfold combined
  rw [hq]

/-- What point t writes back is block t of `combined` of the arrays the region finds at its entry. -/
theorem written_back (c : Dev nD) (t : Fin cfg1.N) :
    (dat1 (F := Ideal) V c).flushed 4 t
      = ((cfg1.win 4).blk t).view.read (Elt Ideal) (combined (V c main_v40) (V c main_v41) (V c main_v27) (V c main_v42)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets]
  obtain ⟨-, -, -, -, -, -, -, -, e0, e1⟩ := block_indices t
  funext j
  refine body_at_point V c t j (((cfg1.win 4).blk t).view.emb j) ?_ ?_
  · show win1_4.index t 0 * 5000 + 1 * (j 0).val = t.val * 5000 + (j 0).val
    rw [e0]; omega
  · show win1_4.index t 1 * 128 + 1 * (j 1).val = (j 1).val
    rw [e1]; omega

/-- An index of the output array is in point t's block iff each coordinate is in the block's range on its axis. -/
theorem mem_block (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

/-- The twenty row blocks cover the array: row r lies in the block of point r / 5000. -/
theorem rows_covered (i : S100000x128.Idx) :
    ∃ t : Fin cfg1.N, (cfg1.win 4).flush t = true ∧ i ∈ ((cfg1.win 4).blk t).view.set := by
  have hN : cfg1.N = 20 := N_1
  have hi0 : (i 0).val < 100000 := (i 0).isLt
  have hi1 : (i 1).val < 128 := (i 1).isLt
  refine ⟨⟨(i 0).val / 5000, by rw [hN]; omega⟩, flush1_4 _, ?_⟩
  rw [mem_block]
  obtain ⟨-, -, -, -, -, -, -, -, e0, e1⟩ := block_indices ⟨(i 0).val / 5000, by rw [hN]; omega⟩
  intro a
  match a with
  | ⟨0, _⟩ =>
    show win1_4.index _ (0 : Fin 2) * 5000 ≤ (i 0).val ∧ (i 0).val < win1_4.index _ (0 : Fin 2) * 5000 + 5000
    rw [e0]; show (i 0).val / 5000 * 5000 ≤ (i 0).val ∧ (i 0).val < (i 0).val / 5000 * 5000 + 5000; omega
  | ⟨1, _⟩ =>
    show win1_4.index _ (1 : Fin 2) * 128 ≤ (i 1).val ∧ (i 1).val < win1_4.index _ (1 : Fin 2) * 128 + 128
    rw [e1]; omega

/-- The output array after the twenty write-backs is `combined` of the arrays the region finds at its entry. -/
theorem array_eq (c : Dev nD) :
    (dat1 (F := Ideal) V c).arrAt 4 cfg1.N = combined (V c main_v40) (V c main_v41) (V c main_v27) (V c main_v42) :=
  (dat1 V c).arrAt_eq_of_cover 4 _ (fun t _ => written_back V c t) rows_covered

end R1

/-- Entry (p, q) of region 1's output array after its twenty row blocks are written back. -/
theorem region1_apply (c : Dev nD) (p : Fin 100000) (q : Fin 128) :
    entryAt ((dat1 (F := Ideal) V c).arrAt 4 cfg1.N) p q = combReluAt (V c main_v40) (V c main_v27) (V c main_v41) (V c main_v42) p q := by
  rw [R1.array_eq V c]
  rfl

end Cert.KernelIdeal.Val

end
-- ==== Proof.Region2.lean ====
/-
  Region 2 of the program, read at an entry: every entry (p, q) of the array the region leaves is
  the rows of the left array times the 128×128 right array, of the arrays the region finds at its entry.
-/
import proofs.«138299_j73512660238656_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«138299_j73512660238656_1_alg».proof.Proof.LibProductEntry
import proofs.«138299_j73512660238656_1_alg».proof.Proof.LibKeepDims
import proofs.«138299_j73512660238656_1_alg».proof.Proof.Spec

noncomputable section

open scoped BigOperators

namespace Cert.KernelIdeal.Val.R2

open Cert.KernelIdeal Cert.KernelIdeal.Gen Idealize.ShloMosaic Idealize.ShloMosaic.TcCoe Idealize.ShloMosaic.ValueIdx

-- the TensorCore's buffer contents when the region is entered
variable (V : (c : Dev nD) → (b : Ref sig .tc) → Buf (Elt Ideal) ((c : Thread nD τ).loc b))

/-! ## The body's stored value at an entry of a row block -/

/-- The left index of the product at output `i` and contraction position `k` keeps the output's row, -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- and takes the contraction position as its column; -/
theorem lhs_col (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- the right index takes the contraction position as its row -/
theorem rhs_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- and keeps the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The stored value at entry `(p, q)` of a row block: row `p` of the block times column `q` of the weight
    (the changes of format are the identity and the product onto the zero accumulator is the exact sum). -/
theorem pay_apply (x : FVec Ideal S5000x128 .f32) (w : FVec Ideal S128x128 .f32) (p : Fin 5000) (q : Fin 128) :
    k2_pay1 (F := Ideal) x w (ix2 p q) = ∑ k : Fin 128, x (ix2 p k) * w (ix2 k q) := by
  unfold k2_pay1
  rw [shapeCast_self]
  refine (Ideal.matmul_constant_zero_apply dot_S5000x128_S128x128_S5000x128_1_0_0_1_n_n none _ _ (ix2 p q)).trans ?_
  exact Cert.ProductEntry.sum_apply dot_S5000x128_S128x128_S5000x128_1_0_0_1_n_n rfl rfl lhs_row lhs_col rhs_row rhs_col x w p q

/-! ## From the blocks to the array -/

/-- The region's output array as one function of the arrays it reads, entry by entry. -/
def whole (A : (⟨⟨2, ![100000, 128]⟩, .f32⟩ : BufTy).Contents (Elt Ideal)) (W : (⟨⟨2, ![128, 128]⟩, .f32⟩ : BufTy).Contents (Elt Ideal)) : (⟨2, ![100000, 128]⟩ : Shape).Idx → Ideal .f32 :=
  fun i => mmAt A W (i 0) (i 1)

/-- A block's entry is the whole array's, when the block's row `p` is the array's row `r`, its column `q` the array's
    column `s`, and the weight is read whole. -/
theorem block_entry (A : (⟨⟨2, ![100000, 128]⟩, .f32⟩ : BufTy).Contents (Elt Ideal)) (W : (⟨⟨2, ![128, 128]⟩, .f32⟩ : BufTy).Contents (Elt Ideal)) (x : FVec Ideal S5000x128 .f32) (w : FVec Ideal S128x128 .f32) (p : Fin 5000) (q : Fin 128) (r : Fin 100000) (s : Fin 128)
    (hx : ∀ k : Fin 128, x (ix2 p k) = A (ix2 r k)) (hw : ∀ k : Fin 128, w (ix2 k q) = W (ix2 k s)) :
    ∑ k : Fin 128, x (ix2 p k) * w (ix2 k q) = mmAt A W r s := by
  unfold mmAt
  rw [Finset.sum_congr rfl fun k _ => by rw [hx k, hw k]]

theorem off_zero : (![0, 0] : Fin 2 → Nat) = fun _ => 0 := funext fun a => by fin_cases a <;> rfl

/-- The block indices of the windows, decided over the twenty points: the left and the output windows take row block
    `t`, the weight window is whole. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

set_option maxHeartbeats 400000 in
/-- What point `t` writes back is block `t` of `whole` of the arrays the region finds. -/
theorem flushed_eq (c : Dev nD) (t : Fin cfg2.N) :
    (dat2 (F := Ideal) V c).flushed 2 t
      = ((cfg2.win 2).blk t).view.read (Elt Ideal) (whole (V c main_v43) (V c main_arg4)) := by
  show (cfg2.win 2).cut (grid2.coords t) ((dat2 V c).after 2 t) = _
  rw [after2_2]
  unfold out2_2
  rw [View.canon_unit_zero off_zero]
  simp only [View.ld_unit_zero (S := S5000x128) off_zero, View.ld_unit_zero (S := S128x128) off_zero]
  obtain ⟨e00, e01, e10, e11, eo0, eo1⟩ := idx_facts t
  funext j
  obtain ⟨p, q, rfl⟩ : ∃ (p : Fin 5000) (q : Fin 128), j = ix2 p q := ⟨j 0, j 1, eq_ix2 j⟩
  refine (pay_apply (iblk2 V c 0 t) (iblk2 V c 1 t) p q).trans ?_
  refine (block_entry (V c main_v43) (V c main_arg4) (iblk2 V c 0 t) (iblk2 V c 1 t) p q
    (((cfg2.win 2).blk t).view.emb (ix2 p q) 0) (((cfg2.win 2).blk t).view.emb (ix2 p q) 1) (fun k => ?_) (fun k => ?_)).trans ?_
  · show V c main_v43 (((cfg2.win 0).blk t).view.emb (ix2 p k)) = V c main_v43 _
    refine congrArg (V c main_v43) ?_
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  · show V c main_arg4 (((cfg2.win 1).blk t).view.emb (ix2 k q)) = V c main_arg4 _
    refine congrArg (V c main_arg4) ?_
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  · rfl

/-- An index of the array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- Row `r` lies in the block of point `r / 5000`: the twenty row blocks cover the array. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨e00, e01, e10, e11, eo0, eo1⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The array after the twenty write-backs is `whole` of the arrays the region finds. -/
theorem final (c : Dev nD) :
    (dat2 (F := Ideal) V c).arrAt 2 cfg2.N = whole (V c main_v43) (V c main_arg4) :=
  (dat2 V c).arrAt_eq_of_cover 2 (whole (V c main_v43) (V c main_arg4)) (fun t _ => flushed_eq V c t) covered

end Cert.KernelIdeal.Val.R2

namespace Cert.KernelIdeal.Val

open Cert.KernelIdeal Cert.KernelIdeal.Gen Idealize.ShloMosaic Idealize.ShloMosaic.TcCoe Idealize.ShloMosaic.ValueIdx

-- the TensorCore's buffer contents when the region is entered
variable (V : (c : Dev nD) → (b : Ref sig .tc) → Buf (Elt Ideal) ((c : Thread nD τ).loc b))

/-- Entry (p, q) of region 2's output array after its twenty row blocks are written back. -/
theorem region2_apply (c : Dev nD) (p : Fin 100000) (q : Fin 128) :
    entryAt ((dat2 (F := Ideal) V c).arrAt 2 cfg2.N) p q = mmAt (V c main_v43) (V c main_arg4) p q := by
  unfold entryAt
  rw [R2.final V c]
  rfl

end Cert.KernelIdeal.Val

end
-- ==== Proof.Region3.lean ====
/-
  Region 3 of the program, read at an entry: every entry (p, q) of the array the region leaves is
  the aggregate plus the per-row coefficient times the projected rows plus the bias row, of the arrays the region finds at its entry.
-/
import proofs.«138299_j73512660238656_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«138299_j73512660238656_1_alg».proof.Proof.LibProductEntry
import proofs.«138299_j73512660238656_1_alg».proof.Proof.LibKeepDims
import proofs.«138299_j73512660238656_1_alg».proof.Proof.Spec

noncomputable section

open scoped BigOperators

namespace Cert.KernelIdeal.Val

open Cert.KernelIdeal Cert.KernelIdeal.Gen Idealize.ShloMosaic Idealize.ShloMosaic.TcCoe Idealize.ShloMosaic.ValueIdx

-- the TensorCore's buffer contents when the region is entered
variable (V : (c : Dev nD) → (b : Ref sig .tc) → Buf (Elt Ideal) ((c : Thread nD τ).loc b))

namespace R3

/-- The zero offsets of a whole-block access, as a constant function. -/
theorem zero_offsets : (![0, 0] : Fin 2 → Nat) = fun _ => 0 := funext fun a => by fin_cases a <;> rfl

/-- One entry of the body's result on a block of 5000 rows: entry (p, q) of the aggregate block, plus row p's
    coefficient (the one entry of row p of the coefficient column) times entry (p, q) of the projected block, plus
    entry q of the bias row. The casts are between equal shapes; the column is spread over the 128 lanes and the
    bias row over the 5000 rows. -/
theorem body_entry (x0 : FVec Ideal S5000x128 .f32) (x2 : FVec Ideal S5000x1 .f32) (x1 : FVec Ideal S5000x128 .f32)
    (x3 : FVec Ideal S1x128 .f32) (p : Fin 5000) (q : Fin 128) :
    k3_pay1 x0 x2 x1 x3 (ix2 p q)
      = FloatOps.addf (FloatOps.addf (x0 (ix2 p q)) (FloatOps.mulf (x2 (ix2 p (0 : Fin 1))) (x1 (ix2 p q))))
          (x3 (ix2 (0 : Fin 1) q)) := by
  unfold k3_pay1
  simp only [shapeCast_self]
  show FloatOps.addf (FloatOps.addf (x0 (ix2 p q)) (FloatOps.mulf (broadcastTo S5000x128 x2 broadcasts_S5000x1_S5000x128 (ix2 p q)) (x1 (ix2 p q))))
      (broadcastTo S5000x128 x3 broadcasts_S1x128_S5000x128 (ix2 p q)) = _
  rw [KeepDims.broadcastTo_a1_ab_apply, broadcastTo_1b_ab_apply]

/-- The whole output array as one function of the four arrays the region reads: at row r and lane l, the
    aggregate's entry plus row r's coefficient times the projected entry, plus the bias row's entry l. -/
def combined (agg : FVec Ideal S100000x128 .f32) (coef : FVec Ideal S100000x1 .f32) (proj : FVec Ideal S100000x128 .f32)
    (bias : FVec Ideal S1x128 .f32) : FVec Ideal S100000x128 .f32 := fun i =>
  FloatOps.addf (FloatOps.addf (agg i) (FloatOps.mulf (coef (ix2 (i 0 : Fin 100000) (0 : Fin 1))) (proj i)))
    (bias (ix2 (0 : Fin 1) (i 1 : Fin 128)))

/-- The block indices at each of the twenty grid points: the three row-blocked inputs and the output are at
    block (t, 0), the bias row at block (0, 0). -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregate's block at point t is its rows 5000·t … 5000·t + 4999: entry y of the block is the array's entry
    at row 5000·t + y₀, lane y₁. -/
theorem agg_block_apply (c : Dev nD) (t : Fin cfg3.N) (y : S5000x128.Idx) (i : S100000x128.Idx)
    (h0 : (i 0).val = t.val * 5000 + (y 0).val) (h1 : (i 1).val = (y 1).val) :
    (iblk3 V c 0 t : Vec Ideal S5000x128 .f32) y = (V c main_v57 : FVec Ideal S100000x128 .f32) i := by
  obtain ⟨e0, e1, -⟩ := block_indices t
  unfold iblk3
  rw [View.read_apply]
  show V c main_v57 _ = V c main_v57 _
  congr 1
  funext a
  apply Fin.ext
  match a with
  | ⟨0, _⟩ => show win3_0.index t 0 * 5000 + 1 * (y 0).val = (i 0).val; rw [e0, h0]; omega
  | ⟨1, _⟩ => show win3_0.index t 1 * 128 + 1 * (y 1).val = (i 1).val; rw [e1, h1]; omega

/-- The projected rows' block at point t is rows 5000·t … 5000·t + 4999 of the projected array. -/
theorem proj_block_apply (c : Dev nD) (t : Fin cfg3.N) (y : S5000x128.Idx) (i : S100000x128.Idx)
    (h0 : (i 0).val = t.val * 5000 + (y 0).val) (h1 : (i 1).val = (y 1).val) :
    (iblk3 V c 1 t : Vec Ideal S5000x128 .f32) y = (V c main_v44 : FVec Ideal S100000x128 .f32) i := by
  obtain ⟨-, -, e0, e1, -⟩ := block_indices t
  unfold iblk3
  rw [View.read_apply]
  show V c main_v44 _ = V c main_v44 _
  congr 1
  funext a
  apply Fin.ext
  match a with
  | ⟨0, _⟩ => show win3_1.index t 0 * 5000 + 1 * (y 0).val = (i 0).val; rw [e0, h0]; omega
  | ⟨1, _⟩ => show win3_1.index t 1 * 128 + 1 * (y 1).val = (i 1).val; rw [e1, h1]; omega

/-- The coefficient column's block at point t is its rows 5000·t … 5000·t + 4999. -/
theorem coef_block_apply (c : Dev nD) (t : Fin cfg3.N) (y : S5000x1.Idx) (i : S100000x1.Idx)
    (h0 : (i 0).val = t.val * 5000 + (y 0).val) (h1 : (i 1).val = (y 1).val) :
    (iblk3 V c 2 t : Vec Ideal S5000x1 .f32) y = (V c main_v58 : FVec Ideal S100000x1 .f32) i := by
  obtain ⟨-, -, -, -, e0, e1, -⟩ := block_indices t
  unfold iblk3
  rw [View.read_apply]
  show V c main_v58 _ = V c main_v58 _
  congr 1
  funext a
  apply Fin.ext
  match a with
  | ⟨0, _⟩ => show win3_2.index t 0 * 5000 + 1 * (y 0).val = (i 0).val; rw [e0, h0]; omega
  | ⟨1, _⟩ => show win3_2.index t 1 * 1 + 1 * (y 1).val = (i 1).val; rw [e1, h1]; omega

/-- The bias row's block is the whole row at every point. -/
theorem bias_block_apply (c : Dev nD) (t : Fin cfg3.N) (y : S1x128.Idx) :
    (iblk3 V c 3 t : Vec Ideal S1x128 .f32) y = (V c main_v59 : FVec Ideal S1x128 .f32) y := by
  obtain ⟨-, -, -, -, -, -, e0, e1, -⟩ := block_indices t
  unfold iblk3
  rw [View.read_apply]
  show V c main_v59 _ = V c main_v59 _
  congr 1
  funext a
  apply Fin.ext
  match a with
  | ⟨0, _⟩ => show win3_3.index t 0 * 1 + 1 * (y 0).val = (y 0).val; rw [e0]; omega
  | ⟨1, _⟩ => show win3_3.index t 1 * 128 + 1 * (y 1).val = (y 1).val; rw [e1]; omega

/-- The body's result at point t, at entry y of the block, is `combined` of the four arrays at row 5000·t + y₀,
    lane y₁: each loaded block is the matching rows of its array. -/
theorem body_at_point (c : Dev nD) (t : Fin cfg3.N) (y : S5000x128.Idx) (i : S100000x128.Idx)
    (h0 : (i 0).val = t.val * 5000 + (y 0).val) (h1 : (i 1).val = (y 1).val) :
    k3_pay1 (iblk3 V c 0 t) (iblk3 V c 2 t) (iblk3 V c 1 t) (iblk3 V c 3 t) y
      = combined (V c main_v57) (V c main_v58) (V c main_v44) (V c main_v59) i := by
  obtain ⟨p, q, rfl⟩ : ∃ (p : Fin 5000) (q : Fin 128), y = ix2 p q := ⟨y 0, y 1, eq_ix2 y⟩
  refine (body_entry (iblk3 V c 0 t) (iblk3 V c 2 t) (iblk3 V c 1 t) (iblk3 V c 3 t) p q).trans ?_
  rw [agg_block_apply V c t (ix2 p q) i h0 h1, proj_block_apply V c t (ix2 p q) i h0 h1,
    coef_block_apply V c t (ix2 p (0 : Fin 1)) (ix2 (i 0 : Fin 100000) (0 : Fin 1)) h0 rfl,
    bias_block_apply V c t (ix2 (0 : Fin 1) q)]
  have hq : (i 1 : Fin 128) = q := Fin.ext h1
  unfold combined
  rw [hq]

/-- What point t writes back is block t of `combined` of the arrays the region finds at its entry. -/
theorem written_back (c : Dev nD) (t : Fin cfg3.N) :
    (dat3 (F := Ideal) V c).flushed 4 t
      = ((cfg3.win 4).blk t).view.read (Elt Ideal) (combined (V c main_v57) (V c main_v58) (V c main_v44) (V c main_v59)) := by
  show (cfg3.win 4).cut (grid3.coords t) ((dat3 V c).after 4 t) = _
  rw [after3_4]
  unfold out3_4
  rw [View.canon_unit_zero zero_offsets]
  simp only [View.ld_unit_zero (S := S5000x128) zero_offsets, View.ld_unit_zero (S := S5000x1) zero_offsets,
    View.ld_unit_zero (S := S1x128) zero_offsets]
  obtain ⟨-, -, -, -, -, -, -, -, e0, e1⟩ := block_indices t
  funext j
  refine body_at_point V c t j (((cfg3.win 4).blk t).view.emb j) ?_ ?_
  · show win3_4.index t 0 * 5000 + 1 * (j 0).val = t.val * 5000 + (j 0).val
    rw [e0]; omega
  · show win3_4.index t 1 * 128 + 1 * (j 1).val = (j 1).val
    rw [e1]; omega

/-- An index of the output array is in point t's block iff each coordinate is in the block's range on its axis. -/
theorem mem_block (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v60).slice (win3_4.rect t)).set ↔ _
  rw [View.set_slice_whole, Rect.mem_set_unit]
  exact Iff.rfl

/-- The twenty row blocks cover the array: row r lies in the block of point r / 5000. -/
theorem rows_covered (i : S100000x128.Idx) :
    ∃ t : Fin cfg3.N, (cfg3.win 4).flush t = true ∧ i ∈ ((cfg3.win 4).blk t).view.set := by
  have hN : cfg3.N = 20 := N_3
  have hi0 : (i 0).val < 100000 := (i 0).isLt
  have hi1 : (i 1).val < 128 := (i 1).isLt
  refine ⟨⟨(i 0).val / 5000, by rw [hN]; omega⟩, flush3_4 _, ?_⟩
  rw [mem_block]
  obtain ⟨-, -, -, -, -, -, -, -, e0, e1⟩ := block_indices ⟨(i 0).val / 5000, by rw [hN]; omega⟩
  intro a
  match a with
  | ⟨0, _⟩ =>
    show win3_4.index _ (0 : Fin 2) * 5000 ≤ (i 0).val ∧ (i 0).val < win3_4.index _ (0 : Fin 2) * 5000 + 5000
    rw [e0]; show (i 0).val / 5000 * 5000 ≤ (i 0).val ∧ (i 0).val < (i 0).val / 5000 * 5000 + 5000; omega
  | ⟨1, _⟩ =>
    show win3_4.index _ (1 : Fin 2) * 128 ≤ (i 1).val ∧ (i 1).val < win3_4.index _ (1 : Fin 2) * 128 + 128
    rw [e1]; omega

/-- The output array after the twenty write-backs is `combined` of the arrays the region finds at its entry. -/
theorem array_eq (c : Dev nD) :
    (dat3 (F := Ideal) V c).arrAt 4 cfg3.N = combined (V c main_v57) (V c main_v58) (V c main_v44) (V c main_v59) :=
  (dat3 V c).arrAt_eq_of_cover 4 _ (fun t _ => written_back V c t) rows_covered

end R3

/-- Entry (p, q) of region 3's output array after its twenty row blocks are written back. -/
theorem region3_apply (c : Dev nD) (p : Fin 100000) (q : Fin 128) :
    entryAt ((dat3 (F := Ideal) V c).arrAt 4 cfg3.N) p q = combAt (V c main_v57) (V c main_v44) (V c main_v58) (V c main_v59) p q := by
  rw [R3.array_eq V c]
  rfl

end Cert.KernelIdeal.Val

end
-- ==== Proof.Region4.lean ====
/-
  Region 4 of the program, read at an entry: every entry (p, q) of the array the region leaves is
  the rows of the sum of the two left arrays times the 128×128 weight, plus the bias row, of the arrays the region finds at its entry.
-/
import proofs.«138299_j73512660238656_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«138299_j73512660238656_1_alg».proof.Proof.LibProductEntry
import proofs.«138299_j73512660238656_1_alg».proof.Proof.LibKeepDims
import proofs.«138299_j73512660238656_1_alg».proof.Proof.Spec

noncomputable section

open scoped BigOperators

namespace Cert.KernelIdeal.Val.R4

open Cert.KernelIdeal Cert.KernelIdeal.Gen Idealize.ShloMosaic Idealize.ShloMosaic.TcCoe Idealize.ShloMosaic.ValueIdx

/-- The contraction record of the 5000×128 by 128×128 product. -/
abbrev D : DotDims S5000x128 S128x128 S5000x128 := dot_S5000x128_S128x128_S5000x128_1_0_0_1_n_n

/-- At output index i and contraction position k the left operand is read at row `i 0`, -/
theorem D_l0 (i : S5000x128.Idx) (k : D.contr.Idx) : (D.lhsIdx i k 0).val = (i 0).val := by
  unfold DotDims.lhsIdx
  rw [dif_neg (show ¬(0 : Fin S5000x128.rank) ∈ D.lhsBatch by decide), dif_pos (show (0 : Fin S5000x128.rank) ∈ D.lhsNonContracting by decide)]
  rfl
/-- and at column k; -/
theorem D_l1 (i : S5000x128.Idx) (k : D.contr.Idx) : (D.lhsIdx i k 1).val = (k ⟨0, by decide⟩).val :=
  D.lhsIdx_val_of_single rfl i k
/-- the right operand at row k -/
theorem D_r0 (i : S5000x128.Idx) (k : D.contr.Idx) : (D.rhsIdx i k 0).val = (k ⟨0, by decide⟩).val :=
  D.rhsIdx_val_of_single rfl i k
/-- and at column `i 1`. -/
theorem D_r1 (i : S5000x128.Idx) (k : D.contr.Idx) : (D.rhsIdx i k 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The value the body stores, at entry (p, q) of its block, over any four loaded blocks: the two identity casts drop,
    the change of float format is the identity at the ideal values, the product onto the zero accumulator is the exact
    sum over the 128 contraction positions, and the bias row is spread over the 5000 rows. -/
theorem pay_apply (x0 x1 : FVec Ideal S5000x128 .f32) (w : FVec Ideal S128x128 .f32) (b : FVec Ideal S1x128 .f32)
    (p : Fin 5000) (q : Fin 128) :
    k4_pay1 (F := Ideal) x0 x1 w b (ix2 p q)
      = FloatOps.addf (∑ k : Fin 128, FloatOps.addf (x0 (ix2 p k)) (x1 (ix2 p k)) * w (ix2 k q)) (b (ix2 (0 : Fin 1) q)) := by
  unfold k4_pay1
  show FloatOps.addf (matmul D none _ _ (constant S5000x128 .f32 0x00000000#32) (ix2 p q)) (broadcastTo S5000x128 (shapeCast S1x128 b _) _ (ix2 p q)) = _
  rw [shapeCast_self, broadcastTo_1b_ab_apply, shapeCast_self]
  refine congrArg (fun z => FloatOps.addf z (b (ix2 (0 : Fin 1) q))) ?_
  refine (Ideal.matmul_constant_zero_apply D none _ _ (ix2 p q)).trans ?_
  refine (Cert.ProductEntry.sum_apply D rfl rfl D_l0 D_l1 D_r0 D_r1 _ _ p q).trans ?_
  rfl

-- the buffer contents when the region is entered
variable (V : (c : Dev nD) → (b : Ref sig .tc) → Buf (Elt Ideal) ((c : Thread nD τ).loc b))

/-- The zero offsets of a whole-buffer rectangle, as a constant function. -/
theorem hz : (![0, 0] : Fin 2 → Nat) = fun _ => 0 := funext fun a => by fin_cases a <;> rfl

/-- The block indices of the five windows at every point of the grid. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Entry x of the first left array's block at point t is the array's entry in row 5000 t + x₀, same column:
    an element of a block sits, on each axis, at block index × block size + its own coordinate. -/
theorem blk0_apply (c : Dev nD) (t : Fin cfg4.N) (x : S5000x128.Idx) (k : S100000x128.Idx)
    (hk0 : (k 0).val = 5000 * t.val + (x 0).val) (hk1 : (k 1).val = (x 1).val) :
    (iblk4 V c 0 t : FVec Ideal S5000x128 .f32) x = (V c main_arg0 : FVec Ideal S100000x128 .f32) k := by
  obtain ⟨e0, e1, -⟩ := idx_facts t
  unfold iblk4
  rw [View.read_apply]
  show V c main_arg0 _ = V c main_arg0 _
  refine congrArg (V c main_arg0) ?_
  funext a
  apply Fin.ext
  match a with
  | ⟨0, _⟩ => show win4_0.index t (0 : Fin 2) * 5000 + 1 * (x 0).val = (k 0).val; rw [e0, hk0]; omega
  | ⟨1, _⟩ => show win4_0.index t (1 : Fin 2) * 128 + 1 * (x 1).val = (k 1).val; rw [e1, hk1]; omega

/-- The same for the second left array. -/
theorem blk1_apply (c : Dev nD) (t : Fin cfg4.N) (x : S5000x128.Idx) (k : S100000x128.Idx)
    (hk0 : (k 0).val = 5000 * t.val + (x 0).val) (hk1 : (k 1).val = (x 1).val) :
    (iblk4 V c 1 t : FVec Ideal S5000x128 .f32) x = (V c main_v70 : FVec Ideal S100000x128 .f32) k := by
  obtain ⟨-, -, e0, e1, -⟩ := idx_facts t
  unfold iblk4
  rw [View.read_apply]
  show V c main_v70 _ = V c main_v70 _
  refine congrArg (V c main_v70) ?_
  funext a
  apply Fin.ext
  match a with
  | ⟨0, _⟩ => show win4_1.index t (0 : Fin 2) * 5000 + 1 * (x 0).val = (k 0).val; rw [e0, hk0]; omega
  | ⟨1, _⟩ => show win4_1.index t (1 : Fin 2) * 128 + 1 * (x 1).val = (k 1).val; rw [e1, hk1]; omega

/-- The weight is staged whole: its block at every point is the array itself. -/
theorem blk2_apply (c : Dev nD) (t : Fin cfg4.N) (x : S128x128.Idx) :
    (iblk4 V c 2 t : FVec Ideal S128x128 .f32) x = (V c main_arg6 : FVec Ideal S128x128 .f32) x := by
  obtain ⟨-, -, -, -, e0, e1, -⟩ := idx_facts t
  unfold iblk4
  rw [View.read_apply]
  show V c main_arg6 _ = V c main_arg6 _
  refine congrArg (V c main_arg6) ?_
  funext a
  apply Fin.ext
  match a with
  | ⟨0, _⟩ => show win4_2.index t (0 : Fin 2) * 128 + 1 * (x 0).val = (x 0).val; rw [e0]; omega
  | ⟨1, _⟩ => show win4_2.index t (1 : Fin 2) * 128 + 1 * (x 1).val = (x 1).val; rw [e1]; omega

/-- The bias row is staged whole: its block at every point is the row itself. -/
theorem blk3_apply (c : Dev nD) (t : Fin cfg4.N) (x : S1x128.Idx) :
    (iblk4 V c 3 t : FVec Ideal S1x128 .f32) x = (V c main_v71 : FVec Ideal S1x128 .f32) x := by
  obtain ⟨-, -, -, -, -, -, e0, e1, -⟩ := idx_facts t
  unfold iblk4
  rw [View.read_apply]
  show V c main_v71 _ = V c main_v71 _
  refine congrArg (V c main_v71) ?_
  funext a
  apply Fin.ext
  match a with
  | ⟨0, _⟩ => show win4_3.index t (0 : Fin 2) * 1 + 1 * (x 0).val = (x 0).val; rw [e0]; omega
  | ⟨1, _⟩ => show win4_3.index t (1 : Fin 2) * 128 + 1 * (x 1).val = (x 1).val; rw [e1]; omega

/-- The whole output array as one function of the four arrays the region reads. -/
def G (a0 a1 : FVec Ideal S100000x128 .f32) (w : FVec Ideal S128x128 .f32) (b : FVec Ideal S1x128 .f32) :
    FVec Ideal S100000x128 .f32 := fun i => linAddAt a0 a1 w b (i 0) (i 1)

/-- What the body stores at point t, entry (p, q) of its block, is the layer's entry (5000 t + p, q). -/
theorem body_apply (c : Dev nD) (t : Fin cfg4.N) (p : Fin 5000) (q : Fin 128) (r : Fin 100000) (hr : r.val = 5000 * t.val + p.val) :
    k4_pay1 (F := Ideal) (iblk4 V c 0 t) (iblk4 V c 1 t) (iblk4 V c 2 t) (iblk4 V c 3 t) (ix2 p q)
      = linAddAt (V c main_arg0) (V c main_v70) (V c main_arg6) (V c main_v71) r q := by
  refine (pay_apply (iblk4 V c 0 t) (iblk4 V c 1 t) (iblk4 V c 2 t) (iblk4 V c 3 t) p q).trans ?_
  unfold linAddAt
  refine congrArg₂ (fun s z => FloatOps.addf s z) (Finset.sum_congr rfl fun k _ => ?_) (blk3_apply V c t _)
  rw [blk0_apply V c t (ix2 p k) (ix2 r k) hr rfl, blk1_apply V c t (ix2 p k) (ix2 r k) hr rfl, blk2_apply V c t (ix2 k q)]

/-- What point t writes back is block t of the layer's array. -/
theorem flushed_eq (c : Dev nD) (t : Fin cfg4.N) :
    (dat4 (F := Ideal) V c).flushed 4 t
      = ((cfg4.win 4).blk t).view.read (Elt Ideal) (G (V c main_arg0) (V c main_v70) (V c main_arg6) (V c main_v71)) := by
  show (cfg4.win 4).cut (grid4.coords t) ((dat4 V c).after 4 t) = _
  rw [after4_4]
  unfold out4_4
  rw [View.canon_unit_zero hz]
  simp only [View.ld_unit_zero (S := S5000x128) hz, View.ld_unit_zero (S := S128x128) hz, View.ld_unit_zero (S := S1x128) hz]
  obtain ⟨-, -, -, -, -, -, -, -, e0, e1⟩ := idx_facts t
  have ht : t.val < 20 := Nat.lt_of_lt_of_eq t.isLt N_4
  show (k4_pay1 (F := Ideal) (iblk4 V c 0 t) (iblk4 V c 1 t) (iblk4 V c 2 t) (iblk4 V c 3 t) : FVec Ideal S5000x128 .f32)
    = fun j : S5000x128.Idx => G (V c main_arg0) (V c main_v70) (V c main_arg6) (V c main_v71) (((cfg4.win 4).blk t).view.emb j)
  funext j
  obtain ⟨p, q, rfl⟩ : ∃ (p : Fin 5000) (q : Fin 128), j = ix2 p q := ⟨j 0, j 1, eq_ix2 j⟩
  have hr : 5000 * t.val + p.val < 100000 := by have := p.isLt; omega
  refine (body_apply V c t p q ⟨5000 * t.val + p.val, hr⟩ rfl).trans ?_
  unfold G
  refine congrArg₂ (linAddAt (V c main_arg0) (V c main_v70) (V c main_arg6) (V c main_v71)) (Fin.ext ?_) (Fin.ext ?_)
  · show 5000 * t.val + p.val = win4_4.index t (0 : Fin 2) * 5000 + 1 * p.val
    rw [e0]; omega
  · show q.val = win4_4.index t (1 : Fin 2) * 128 + 1 * q.val
    rw [e1]; omega

/-- An index of the array is in point t's block iff each coordinate is in the block's range on its axis. -/
theorem mem_blk (t : Fin cfg4.N) (i : S100000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v72).slice (win4_4.rect t)).set ↔ _
  rw [View.set_slice_whole, Rect.mem_set_unit]
  exact Iff.rfl

/-- Row r of the array lies in the block of point r / 5000. -/
theorem cover (i : S100000x128.Idx) : ∃ t : Fin cfg4.N, (cfg4.win 4).flush t = true ∧ i ∈ ((cfg4.win 4).blk t).view.set := by
  have hi0 : (i 0).val < 100000 := (i 0).isLt
  have hi1 : (i 1).val < 128 := (i 1).isLt
  obtain ⟨t, ht⟩ : ∃ t : Fin cfg4.N, t.val = (i 0).val / 5000 := ⟨⟨(i 0).val / 5000, by rw [show cfg4.N = 20 from N_4]; omega⟩, rfl⟩
  obtain ⟨-, -, -, -, -, -, -, -, e0, e1⟩ := idx_facts t
  refine ⟨t, flush4_4 t, ?_⟩
  rw [mem_blk]
  intro a
  match a with
  | ⟨0, _⟩ =>
    show win4_4.index t (0 : Fin 2) * 5000 ≤ (i 0).val ∧ (i 0).val < win4_4.index t (0 : Fin 2) * 5000 + 5000
    rw [e0, ht]; omega
  | ⟨1, _⟩ =>
    show win4_4.index t (1 : Fin 2) * 128 ≤ (i 1).val ∧ (i 1).val < win4_4.index t (1 : Fin 2) * 128 + 128
    rw [e1]; omega

/-- The output array after the twenty write-backs is the layer's array. -/
theorem final (c : Dev nD) :
    (dat4 (F := Ideal) V c).arrAt 4 cfg4.N = G (V c main_arg0) (V c main_v70) (V c main_arg6) (V c main_v71) :=
  (dat4 (F := Ideal) V c).arrAt_eq_of_cover 4 (G (V c main_arg0) (V c main_v70) (V c main_arg6) (V c main_v71))
    (fun t _ => flushed_eq V c t) cover

end Cert.KernelIdeal.Val.R4

namespace Cert.KernelIdeal.Val

open Cert.KernelIdeal Cert.KernelIdeal.Gen Idealize.ShloMosaic Idealize.ShloMosaic.TcCoe Idealize.ShloMosaic.ValueIdx

-- the TensorCore's buffer contents when the region is entered
variable (V : (c : Dev nD) → (b : Ref sig .tc) → Buf (Elt Ideal) ((c : Thread nD τ).loc b))

/-- Entry (p, q) of region 4's output array after its twenty row blocks are written back. -/
theorem region4_apply (c : Dev nD) (p : Fin 100000) (q : Fin 128) :
    entryAt ((dat4 (F := Ideal) V c).arrAt 4 cfg4.N) p q = linAddAt (V c main_arg0) (V c main_v70) (V c main_arg6) (V c main_v71) p q := by
  unfold entryAt
  exact congrFun (R4.final V c) (ix2 p q)

end Cert.KernelIdeal.Val

end
-- ==== Proof.Region5.lean ====
/-
  Region 5 of the program, read at an entry: every entry (p, q) of the array the region leaves is
  the rows of the sum of the two left arrays times the 128×128 weight, plus the bias row, of the arrays the region finds at its entry.
-/
import proofs.«138299_j73512660238656_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«138299_j73512660238656_1_alg».proof.Proof.LibProductEntry
import proofs.«138299_j73512660238656_1_alg».proof.Proof.LibKeepDims
import proofs.«138299_j73512660238656_1_alg».proof.Proof.Spec

noncomputable section

open scoped BigOperators

namespace Cert.KernelIdeal.Val.R5

open Cert.KernelIdeal Cert.KernelIdeal.Gen Idealize.ShloMosaic Idealize.ShloMosaic.TcCoe Idealize.ShloMosaic.ValueIdx

/-- The contraction record of the 5000×128 by 128×128 product. -/
abbrev D : DotDims S5000x128 S128x128 S5000x128 := dot_S5000x128_S128x128_S5000x128_1_0_0_1_n_n

/-- At output index i and contraction position k the left operand is read at row `i 0`, -/
theorem D_l0 (i : S5000x128.Idx) (k : D.contr.Idx) : (D.lhsIdx i k 0).val = (i 0).val := by
  unfold DotDims.lhsIdx
  rw [dif_neg (show ¬(0 : Fin S5000x128.rank) ∈ D.lhsBatch by decide), dif_pos (show (0 : Fin S5000x128.rank) ∈ D.lhsNonContracting by decide)]
  rfl
/-- and at column k; -/
theorem D_l1 (i : S5000x128.Idx) (k : D.contr.Idx) : (D.lhsIdx i k 1).val = (k ⟨0, by decide⟩).val :=
  D.lhsIdx_val_of_single rfl i k
/-- the right operand at row k -/
theorem D_r0 (i : S5000x128.Idx) (k : D.contr.Idx) : (D.rhsIdx i k 0).val = (k ⟨0, by decide⟩).val :=
  D.rhsIdx_val_of_single rfl i k
/-- and at column `i 1`. -/
theorem D_r1 (i : S5000x128.Idx) (k : D.contr.Idx) : (D.rhsIdx i k 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The value the body stores, at entry (p, q) of its block, over any four loaded blocks: the three identity casts drop,
    the change of float format is the identity at the ideal values, the product onto the zero accumulator is the exact
    sum over the 128 contraction positions, and the bias row is spread over the 5000 rows. -/
theorem pay_apply (x0 x1 : FVec Ideal S5000x128 .f32) (w : FVec Ideal S128x128 .f32) (b : FVec Ideal S1x128 .f32)
    (p : Fin 5000) (q : Fin 128) :
    k5_pay1 (F := Ideal) x0 x1 w b (ix2 p q)
      = FloatOps.addf (∑ k : Fin 128, FloatOps.addf (x0 (ix2 p k)) (x1 (ix2 p k)) * w (ix2 k q)) (b (ix2 (0 : Fin 1) q)) := by
  unfold k5_pay1
  show FloatOps.addf (matmul D none _ _ (constant S5000x128 .f32 0x00000000#32) (ix2 p q)) (broadcastTo S5000x128 (shapeCast S1x128 b _) _ (ix2 p q)) = _
  rw [shapeCast_self, shapeCast_self, shapeCast_self, broadcastTo_1b_ab_apply]
  refine congrArg (fun z => FloatOps.addf z (b (ix2 (0 : Fin 1) q))) ?_
  refine (Ideal.matmul_constant_zero_apply D none _ _ (ix2 p q)).trans ?_
  refine (Cert.ProductEntry.sum_apply D rfl rfl D_l0 D_l1 D_r0 D_r1 _ _ p q).trans ?_
  rfl

-- the buffer contents when the region is entered
variable (V : (c : Dev nD) → (b : Ref sig .tc) → Buf (Elt Ideal) ((c : Thread nD τ).loc b))

/-- The zero offsets of a whole-buffer rectangle, as a constant function. -/
theorem hz : (![0, 0] : Fin 2 → Nat) = fun _ => 0 := funext fun a => by fin_cases a <;> rfl

/-- The block indices of the five windows at every point of the grid. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Entry x of the first left array's block at point t is the array's entry in row 5000 t + x₀, same column:
    an element of a block sits, on each axis, at block index × block size + its own coordinate. -/
theorem blk0_apply (c : Dev nD) (t : Fin cfg5.N) (x : S5000x128.Idx) (k : S100000x128.Idx)
    (hk0 : (k 0).val = 5000 * t.val + (x 0).val) (hk1 : (k 1).val = (x 1).val) :
    (iblk5 V c 0 t : FVec Ideal S5000x128 .f32) x = (V c main_v72 : FVec Ideal S100000x128 .f32) k := by
  obtain ⟨e0, e1, -⟩ := idx_facts t
  unfold iblk5
  rw [View.read_apply]
  show V c main_v72 _ = V c main_v72 _
  refine congrArg (V c main_v72) ?_
  funext a
  apply Fin.ext
  match a with
  | ⟨0, _⟩ => show win5_0.index t (0 : Fin 2) * 5000 + 1 * (x 0).val = (k 0).val; rw [e0, hk0]; omega
  | ⟨1, _⟩ => show win5_0.index t (1 : Fin 2) * 128 + 1 * (x 1).val = (k 1).val; rw [e1, hk1]; omega

/-- The same for the second left array. -/
theorem blk1_apply (c : Dev nD) (t : Fin cfg5.N) (x : S5000x128.Idx) (k : S100000x128.Idx)
    (hk0 : (k 0).val = 5000 * t.val + (x 0).val) (hk1 : (k 1).val = (x 1).val) :
    (iblk5 V c 1 t : FVec Ideal S5000x128 .f32) x = (V c main_v82 : FVec Ideal S100000x128 .f32) k := by
  obtain ⟨-, -, e0, e1, -⟩ := idx_facts t
  unfold iblk5
  rw [View.read_apply]
  show V c main_v82 _ = V c main_v82 _
  refine congrArg (V c main_v82) ?_
  funext a
  apply Fin.ext
  match a with
  | ⟨0, _⟩ => show win5_1.index t (0 : Fin 2) * 5000 + 1 * (x 0).val = (k 0).val; rw [e0, hk0]; omega
  | ⟨1, _⟩ => show win5_1.index t (1 : Fin 2) * 128 + 1 * (x 1).val = (k 1).val; rw [e1, hk1]; omega

/-- The weight is staged whole: its block at every point is the array itself. -/
theorem blk2_apply (c : Dev nD) (t : Fin cfg5.N) (x : S128x128.Idx) :
    (iblk5 V c 2 t : FVec Ideal S128x128 .f32) x = (V c main_arg8 : FVec Ideal S128x128 .f32) x := by
  obtain ⟨-, -, -, -, e0, e1, -⟩ := idx_facts t
  unfold iblk5
  rw [View.read_apply]
  show V c main_arg8 _ = V c main_arg8 _
  refine congrArg (V c main_arg8) ?_
  funext a
  apply Fin.ext
  match a with
  | ⟨0, _⟩ => show win5_2.index t (0 : Fin 2) * 128 + 1 * (x 0).val = (x 0).val; rw [e0]; omega
  | ⟨1, _⟩ => show win5_2.index t (1 : Fin 2) * 128 + 1 * (x 1).val = (x 1).val; rw [e1]; omega

/-- The bias row is staged whole: its block at every point is the row itself. -/
theorem blk3_apply (c : Dev nD) (t : Fin cfg5.N) (x : S1x128.Idx) :
    (iblk5 V c 3 t : FVec Ideal S1x128 .f32) x = (V c main_v83 : FVec Ideal S1x128 .f32) x := by
  obtain ⟨-, -, -, -, -, -, e0, e1, -⟩ := idx_facts t
  unfold iblk5
  rw [View.read_apply]
  show V c main_v83 _ = V c main_v83 _
  refine congrArg (V c main_v83) ?_
  funext a
  apply Fin.ext
  match a with
  | ⟨0, _⟩ => show win5_3.index t (0 : Fin 2) * 1 + 1 * (x 0).val = (x 0).val; rw [e0]; omega
  | ⟨1, _⟩ => show win5_3.index t (1 : Fin 2) * 128 + 1 * (x 1).val = (x 1).val; rw [e1]; omega

/-- The whole output array as one function of the four arrays the region reads. -/
def G (a0 a1 : FVec Ideal S100000x128 .f32) (w : FVec Ideal S128x128 .f32) (b : FVec Ideal S1x128 .f32) :
    FVec Ideal S100000x128 .f32 := fun i => linAddAt a0 a1 w b (i 0) (i 1)

/-- What the body stores at point t, entry (p, q) of its block, is the layer's entry (5000 t + p, q). -/
theorem body_apply (c : Dev nD) (t : Fin cfg5.N) (p : Fin 5000) (q : Fin 128) (r : Fin 100000) (hr : r.val = 5000 * t.val + p.val) :
    k5_pay1 (F := Ideal) (iblk5 V c 0 t) (iblk5 V c 1 t) (iblk5 V c 2 t) (iblk5 V c 3 t) (ix2 p q)
      = linAddAt (V c main_v72) (V c main_v82) (V c main_arg8) (V c main_v83) r q := by
  refine (pay_apply (iblk5 V c 0 t) (iblk5 V c 1 t) (iblk5 V c 2 t) (iblk5 V c 3 t) p q).trans ?_
  unfold linAddAt
  refine congrArg₂ (fun s z => FloatOps.addf s z) (Finset.sum_congr rfl fun k _ => ?_) (blk3_apply V c t _)
  rw [blk0_apply V c t (ix2 p k) (ix2 r k) hr rfl, blk1_apply V c t (ix2 p k) (ix2 r k) hr rfl, blk2_apply V c t (ix2 k q)]

/-- What point t writes back is block t of the layer's array. -/
theorem flushed_eq (c : Dev nD) (t : Fin cfg5.N) :
    (dat5 (F := Ideal) V c).flushed 4 t
      = ((cfg5.win 4).blk t).view.read (Elt Ideal) (G (V c main_v72) (V c main_v82) (V c main_arg8) (V c main_v83)) := by
  show (cfg5.win 4).cut (grid5.coords t) ((dat5 V c).after 4 t) = _
  rw [after5_4]
  unfold out5_4
  rw [View.canon_unit_zero hz]
  simp only [View.ld_unit_zero (S := S5000x128) hz, View.ld_unit_zero (S := S128x128) hz, View.ld_unit_zero (S := S1x128) hz]
  obtain ⟨-, -, -, -, -, -, -, -, e0, e1⟩ := idx_facts t
  have ht : t.val < 20 := Nat.lt_of_lt_of_eq t.isLt N_5
  show (k5_pay1 (F := Ideal) (iblk5 V c 0 t) (iblk5 V c 1 t) (iblk5 V c 2 t) (iblk5 V c 3 t) : FVec Ideal S5000x128 .f32)
    = fun j : S5000x128.Idx => G (V c main_v72) (V c main_v82) (V c main_arg8) (V c main_v83) (((cfg5.win 4).blk t).view.emb j)
  funext j
  obtain ⟨p, q, rfl⟩ : ∃ (p : Fin 5000) (q : Fin 128), j = ix2 p q := ⟨j 0, j 1, eq_ix2 j⟩
  have hr : 5000 * t.val + p.val < 100000 := by have := p.isLt; omega
  refine (body_apply V c t p q ⟨5000 * t.val + p.val, hr⟩ rfl).trans ?_
  unfold G
  refine congrArg₂ (linAddAt (V c main_v72) (V c main_v82) (V c main_arg8) (V c main_v83)) (Fin.ext ?_) (Fin.ext ?_)
  · show 5000 * t.val + p.val = win5_4.index t (0 : Fin 2) * 5000 + 1 * p.val
    rw [e0]; omega
  · show q.val = win5_4.index t (1 : Fin 2) * 128 + 1 * q.val
    rw [e1]; omega

/-- An index of the array is in point t's block iff each coordinate is in the block's range on its axis. -/
theorem mem_blk (t : Fin cfg5.N) (i : S100000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v84).slice (win5_4.rect t)).set ↔ _
  rw [View.set_slice_whole, Rect.mem_set_unit]
  exact Iff.rfl

/-- Row r of the array lies in the block of point r / 5000. -/
theorem cover (i : S100000x128.Idx) : ∃ t : Fin cfg5.N, (cfg5.win 4).flush t = true ∧ i ∈ ((cfg5.win 4).blk t).view.set := by
  have hi0 : (i 0).val < 100000 := (i 0).isLt
  have hi1 : (i 1).val < 128 := (i 1).isLt
  obtain ⟨t, ht⟩ : ∃ t : Fin cfg5.N, t.val = (i 0).val / 5000 := ⟨⟨(i 0).val / 5000, by rw [show cfg5.N = 20 from N_5]; omega⟩, rfl⟩
  obtain ⟨-, -, -, -, -, -, -, -, e0, e1⟩ := idx_facts t
  refine ⟨t, flush5_4 t, ?_⟩
  rw [mem_blk]
  intro a
  match a with
  | ⟨0, _⟩ =>
    show win5_4.index t (0 : Fin 2) * 5000 ≤ (i 0).val ∧ (i 0).val < win5_4.index t (0 : Fin 2) * 5000 + 5000
    rw [e0, ht]; omega
  | ⟨1, _⟩ =>
    show win5_4.index t (1 : Fin 2) * 128 ≤ (i 1).val ∧ (i 1).val < win5_4.index t (1 : Fin 2) * 128 + 128
    rw [e1]; omega

/-- The output array after the twenty write-backs is the layer's array. -/
theorem final (c : Dev nD) :
    (dat5 (F := Ideal) V c).arrAt 4 cfg5.N = G (V c main_v72) (V c main_v82) (V c main_arg8) (V c main_v83) :=
  (dat5 (F := Ideal) V c).arrAt_eq_of_cover 4 (G (V c main_v72) (V c main_v82) (V c main_arg8) (V c main_v83))
    (fun t _ => flushed_eq V c t) cover

end Cert.KernelIdeal.Val.R5

namespace Cert.KernelIdeal.Val

open Cert.KernelIdeal Cert.KernelIdeal.Gen Idealize.ShloMosaic Idealize.ShloMosaic.TcCoe Idealize.ShloMosaic.ValueIdx

-- the TensorCore's buffer contents when the region is entered
variable (V : (c : Dev nD) → (b : Ref sig .tc) → Buf (Elt Ideal) ((c : Thread nD τ).loc b))

/-- Entry (p, q) of region 5's output array after its twenty row blocks are written back. -/
theorem region5_apply (c : Dev nD) (p : Fin 100000) (q : Fin 128) :
    entryAt ((dat5 (F := Ideal) V c).arrAt 4 cfg5.N) p q = linAddAt (V c main_v72) (V c main_v82) (V c main_arg8) (V c main_v83) p q := by
  unfold entryAt
  exact congrFun (R5.final V c) (ix2 p q)

end Cert.KernelIdeal.Val

end
-- ==== Proof.Region6.lean ====
/-
  Region 6 of the program, read at an entry: every entry (p, q) of the array the region leaves is
  the rows of the left array times the 128×128 weight, plus the bias row, of the arrays the region finds at its entry.
-/
import proofs.«138299_j73512660238656_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«138299_j73512660238656_1_alg».proof.Proof.LibProductEntry
import proofs.«138299_j73512660238656_1_alg».proof.Proof.LibKeepDims
import proofs.«138299_j73512660238656_1_alg».proof.Proof.Spec

noncomputable section

open scoped BigOperators

namespace Cert.KernelIdeal.Val.R6

open Cert.KernelIdeal Cert.KernelIdeal.Gen Idealize.ShloMosaic Idealize.ShloMosaic.TcCoe Idealize.ShloMosaic.ValueIdx

-- the TensorCore's buffer contents when the region is entered
variable (V : (c : Dev nD) → (b : Ref sig .tc) → Buf (Elt Ideal) ((c : Thread nD τ).loc b))

/-! ## The body's stored value at an entry of a row block -/

/-- The left index of the product at output `i` and contraction position `k` keeps the output's row, -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- and takes the contraction position as its column; -/
theorem lhs_col (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- the right index takes the contraction position as its row -/
theorem rhs_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- and keeps the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The stored value at entry `(p, q)` of a row block: row `p` of the block times column `q` of the weight, plus the bias row's entry `q`
    (the changes of format are the identity and the product onto the zero accumulator is the exact sum). -/
theorem pay_apply (x : FVec Ideal S5000x128 .f32) (w : FVec Ideal S128x128 .f32) (b : FVec Ideal S1x128 .f32) (p : Fin 5000) (q : Fin 128) :
    k6_pay1 (F := Ideal) x w b (ix2 p q) = FloatOps.addf (F := Ideal) (φ := .f32) (∑ k : Fin 128, x (ix2 p k) * w (ix2 k q)) (b (ix2 (0 : Fin 1) q)) := by
  unfold k6_pay1
  show FloatOps.addf (F := Ideal) (φ := .f32) _ _ = _
  rw [shapeCast_self, shapeCast_self, broadcastTo_1b_ab_apply b broadcasts_S1x128_S5000x128 p q]
  refine congrArg (fun s => FloatOps.addf (F := Ideal) (φ := .f32) s (b (ix2 (0 : Fin 1) q))) ?_
  refine (Ideal.matmul_constant_zero_apply dot_S5000x128_S128x128_S5000x128_1_0_0_1_n_n none _ _ (ix2 p q)).trans ?_
  exact Cert.ProductEntry.sum_apply dot_S5000x128_S128x128_S5000x128_1_0_0_1_n_n rfl rfl lhs_row lhs_col rhs_row rhs_col x w p q

/-! ## From the blocks to the array -/

/-- The region's output array as one function of the arrays it reads, entry by entry. -/
def whole (A : (⟨⟨2, ![100000, 128]⟩, .f32⟩ : BufTy).Contents (Elt Ideal)) (W : (⟨⟨2, ![128, 128]⟩, .f32⟩ : BufTy).Contents (Elt Ideal)) (B : (⟨⟨2, ![1, 128]⟩, .f32⟩ : BufTy).Contents (Elt Ideal)) : (⟨2, ![100000, 128]⟩ : Shape).Idx → Ideal .f32 :=
  fun i => linAt A W B (i 0) (i 1)

/-- A block's entry is the whole array's, when the block's row `p` is the array's row `r`, its column `q` the array's
    column `s`, and the weight and the bias row are read whole. -/
theorem block_entry (A : (⟨⟨2, ![100000, 128]⟩, .f32⟩ : BufTy).Contents (Elt Ideal)) (W : (⟨⟨2, ![128, 128]⟩, .f32⟩ : BufTy).Contents (Elt Ideal)) (B : (⟨⟨2, ![1, 128]⟩, .f32⟩ : BufTy).Contents (Elt Ideal)) (x : FVec Ideal S5000x128 .f32) (w : FVec Ideal S128x128 .f32) (b : FVec Ideal S1x128 .f32) (p : Fin 5000) (q : Fin 128) (r : Fin 100000) (s : Fin 128)
    (hx : ∀ k : Fin 128, x (ix2 p k) = A (ix2 r k)) (hw : ∀ k : Fin 128, w (ix2 k q) = W (ix2 k s)) (hb : b (ix2 (0 : Fin 1) q) = B (ix2 (0 : Fin 1) s)) :
    FloatOps.addf (F := Ideal) (φ := .f32) (∑ k : Fin 128, x (ix2 p k) * w (ix2 k q)) (b (ix2 (0 : Fin 1) q)) = linAt A W B r s := by
  unfold linAt
  rw [hb, Finset.sum_congr rfl fun k _ => by rw [hx k, hw k]]

theorem off_zero : (![0, 0] : Fin 2 → Nat) = fun _ => 0 := funext fun a => by fin_cases a <;> rfl

/-- The block indices of the windows, decided over the twenty points: the left and the output windows take row block
    `t`, the weight and bias windows are whole. -/
theorem idx_facts : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

set_option maxHeartbeats 400000 in
/-- What point `t` writes back is block `t` of `whole` of the arrays the region finds. -/
theorem flushed_eq (c : Dev nD) (t : Fin cfg6.N) :
    (dat6 (F := Ideal) V c).flushed 3 t
      = ((cfg6.win 3).blk t).view.read (Elt Ideal) (whole (V c main_v84) (V c main_arg10) (V c main_v85)) := by
  show (cfg6.win 3).cut (grid6.coords t) ((dat6 V c).after 3 t) = _
  rw [after6_3]
  unfold out6_3
  rw [View.canon_unit_zero off_zero]
  simp only [View.ld_unit_zero (S := S5000x128) off_zero, View.ld_unit_zero (S := S128x128) off_zero, View.ld_unit_zero (S := S1x128) off_zero]
  obtain ⟨e00, e01, e10, e11, e20, e21, eo0, eo1⟩ := idx_facts t
  funext j
  obtain ⟨p, q, rfl⟩ : ∃ (p : Fin 5000) (q : Fin 128), j = ix2 p q := ⟨j 0, j 1, eq_ix2 j⟩
  refine (pay_apply (iblk6 V c 0 t) (iblk6 V c 1 t) (iblk6 V c 2 t) p q).trans ?_
  refine (block_entry (V c main_v84) (V c main_arg10) (V c main_v85) (iblk6 V c 0 t) (iblk6 V c 1 t) (iblk6 V c 2 t) p q
    (((cfg6.win 3).blk t).view.emb (ix2 p q) 0) (((cfg6.win 3).blk t).view.emb (ix2 p q) 1) (fun k => ?_) (fun k => ?_) ?_).trans ?_
  · show V c main_v84 (((cfg6.win 0).blk t).view.emb (ix2 p k)) = V c main_v84 _
    refine congrArg (V c main_v84) ?_
    funext a; apply Fin.ext
    match a with
    | ⟨0, _⟩ => show win6_0.index t (0 : Fin 2) * 5000 + 1 * p.val = win6_3.index t (0 : Fin 2) * 5000 + 1 * p.val; omega
    | ⟨1, _⟩ => show win6_0.index t (1 : Fin 2) * 128 + 1 * k.val = k.val; omega
  · show V c main_arg10 (((cfg6.win 1).blk t).view.emb (ix2 k q)) = V c main_arg10 _
    refine congrArg (V c main_arg10) ?_
    funext a; apply Fin.ext
    match a with
    | ⟨0, _⟩ => show win6_1.index t (0 : Fin 2) * 128 + 1 * k.val = k.val; omega
    | ⟨1, _⟩ => show win6_1.index t (1 : Fin 2) * 128 + 1 * q.val = win6_3.index t (1 : Fin 2) * 128 + 1 * q.val; omega
  · show V c main_v85 (((cfg6.win 2).blk t).view.emb (ix2 (0 : Fin 1) q)) = V c main_v85 _
    refine congrArg (V c main_v85) ?_
    funext a; apply Fin.ext
    match a with
    | ⟨0, _⟩ => show win6_2.index t (0 : Fin 2) * 1 + 1 * 0 = 0; omega
    | ⟨1, _⟩ => show win6_2.index t (1 : Fin 2) * 128 + 1 * q.val = win6_3.index t (1 : Fin 2) * 128 + 1 * q.val; omega
  · rfl

/-- An index of the array is in point `t`'s block iff each coordinate is in the block's range on its axis. -/
theorem mem_blk (t : Fin cfg6.N) (i : S100000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v86).slice (win6_3.rect t)).set ↔ _
  rw [View.set_slice_whole, Rect.mem_set_unit]
  exact Iff.rfl

/-- Row `r` lies in the block of point `r / 5000`: the twenty row blocks cover the array. -/
theorem covered (i : S100000x128.Idx) :
    ∃ t : Fin cfg6.N, (cfg6.win 3).flush t = true ∧ i ∈ ((cfg6.win 3).blk t).view.set := by
  have hi0 : (i 0).val < 100000 := (i 0).isLt
  have hi1 : (i 1).val < 128 := (i 1).isLt
  have hN : cfg6.N = 20 := N_6
  let t : Fin cfg6.N := ⟨(i 0).val / 5000, by rw [hN]; omega⟩
  obtain ⟨e00, e01, e10, e11, e20, e21, eo0, eo1⟩ := idx_facts t
  have ht : t.val = (i 0).val / 5000 := rfl
  refine ⟨t, flush6_3 t, ?_⟩
  rw [mem_blk]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 128 ≤ (i 1).val ∧ (i 1).val < win6_3.index t (1 : Fin 2) * 128 + 128; omega

/-- The array after the twenty write-backs is `whole` of the arrays the region finds. -/
theorem final (c : Dev nD) :
    (dat6 (F := Ideal) V c).arrAt 3 cfg6.N = whole (V c main_v84) (V c main_arg10) (V c main_v85) :=
  (dat6 V c).arrAt_eq_of_cover 3 (whole (V c main_v84) (V c main_arg10) (V c main_v85)) (fun t _ => flushed_eq V c t) covered

end Cert.KernelIdeal.Val.R6

namespace Cert.KernelIdeal.Val

open Cert.KernelIdeal Cert.KernelIdeal.Gen Idealize.ShloMosaic Idealize.ShloMosaic.TcCoe Idealize.ShloMosaic.ValueIdx

-- the TensorCore's buffer contents when the region is entered
variable (V : (c : Dev nD) → (b : Ref sig .tc) → Buf (Elt Ideal) ((c : Thread nD τ).loc b))

/-- Entry (p, q) of region 6's output array after its twenty row blocks are written back. -/
theorem region6_apply (c : Dev nD) (p : Fin 100000) (q : Fin 128) :
    entryAt ((dat6 (F := Ideal) V c).arrAt 3 cfg6.N) p q = linAt (V c main_v84) (V c main_arg10) (V c main_v85) p q := by
  unfold entryAt
  rw [R6.final V c]
  rfl

end Cert.KernelIdeal.Val

end
-- ==== Proof.Region7.lean ====
/-
  Region 7 of the program, read at an entry: every entry (p, q) of the array the region leaves is
  the rows of the left array times the 128×128 weight, plus the bias row, of the arrays the region finds at its entry.
-/
import proofs.«138299_j73512660238656_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«138299_j73512660238656_1_alg».proof.Proof.LibProductEntry
import proofs.«138299_j73512660238656_1_alg».proof.Proof.LibKeepDims
import proofs.«138299_j73512660238656_1_alg».proof.Proof.Spec

noncomputable section

open scoped BigOperators

namespace Cert.KernelIdeal.Val.R7

open Cert.KernelIdeal Cert.KernelIdeal.Gen Idealize.ShloMosaic Idealize.ShloMosaic.TcCoe Idealize.ShloMosaic.ValueIdx

-- the TensorCore's buffer contents when the region is entered
variable (V : (c : Dev nD) → (b : Ref sig .tc) → Buf (Elt Ideal) ((c : Thread nD τ).loc b))

/-! ## The body's stored value at an entry of a row block -/

/-- The left index of the product at output `i` and contraction position `k` keeps the output's row, -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- and takes the contraction position as its column; -/
theorem lhs_col (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- the right index takes the contraction position as its row -/
theorem rhs_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- and keeps the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The stored value at entry `(p, q)` of a row block: row `p` of the block times column `q` of the weight, plus the bias row's entry `q`
    (the changes of format are the identity and the product onto the zero accumulator is the exact sum). -/
theorem pay_apply (x : FVec Ideal S5000x128 .f32) (w : FVec Ideal S128x128 .f32) (b : FVec Ideal S1x128 .f32) (p : Fin 5000) (q : Fin 128) :
    k7_pay1 (F := Ideal) x w b (ix2 p q) = FloatOps.addf (F := Ideal) (φ := .f32) (∑ k : Fin 128, x (ix2 p k) * w (ix2 k q)) (b (ix2 (0 : Fin 1) q)) := by
  unfold k7_pay1
  show FloatOps.addf (F := Ideal) (φ := .f32) _ _ = _
  rw [shapeCast_self, shapeCast_self, broadcastTo_1b_ab_apply b broadcasts_S1x128_S5000x128 p q]
  refine congrArg (fun s => FloatOps.addf (F := Ideal) (φ := .f32) s (b (ix2 (0 : Fin 1) q))) ?_
  refine (Ideal.matmul_constant_zero_apply dot_S5000x128_S128x128_S5000x128_1_0_0_1_n_n none _ _ (ix2 p q)).trans ?_
  exact Cert.ProductEntry.sum_apply dot_S5000x128_S128x128_S5000x128_1_0_0_1_n_n rfl rfl lhs_row lhs_col rhs_row rhs_col x w p q

/-! ## From the blocks to the array -/

/-- The region's output array as one function of the arrays it reads, entry by entry. -/
def whole (A : (⟨⟨2, ![100000, 128]⟩, .f32⟩ : BufTy).Contents (Elt Ideal)) (W : (⟨⟨2, ![128, 128]⟩, .f32⟩ : BufTy).Contents (Elt Ideal)) (B : (⟨⟨2, ![1, 128]⟩, .f32⟩ : BufTy).Contents (Elt Ideal)) : (⟨2, ![100000, 128]⟩ : Shape).Idx → Ideal .f32 :=
  fun i => linAt A W B (i 0) (i 1)

/-- A block's entry is the whole array's, when the block's row `p` is the array's row `r`, its column `q` the array's
    column `s`, and the weight and the bias row are read whole. -/
theorem block_entry (A : (⟨⟨2, ![100000, 128]⟩, .f32⟩ : BufTy).Contents (Elt Ideal)) (W : (⟨⟨2, ![128, 128]⟩, .f32⟩ : BufTy).Contents (Elt Ideal)) (B : (⟨⟨2, ![1, 128]⟩, .f32⟩ : BufTy).Contents (Elt Ideal)) (x : FVec Ideal S5000x128 .f32) (w : FVec Ideal S128x128 .f32) (b : FVec Ideal S1x128 .f32) (p : Fin 5000) (q : Fin 128) (r : Fin 100000) (s : Fin 128)
    (hx : ∀ k : Fin 128, x (ix2 p k) = A (ix2 r k)) (hw : ∀ k : Fin 128, w (ix2 k q) = W (ix2 k s)) (hb : b (ix2 (0 : Fin 1) q) = B (ix2 (0 : Fin 1) s)) :
    FloatOps.addf (F := Ideal) (φ := .f32) (∑ k : Fin 128, x (ix2 p k) * w (ix2 k q)) (b (ix2 (0 : Fin 1) q)) = linAt A W B r s := by
  unfold linAt
  rw [hb, Finset.sum_congr rfl fun k _ => by rw [hx k, hw k]]

theorem off_zero : (![0, 0] : Fin 2 → Nat) = fun _ => 0 := funext fun a => by fin_cases a <;> rfl

/-- The block indices of the windows, decided over the twenty points: the left and the output windows take row block
    `t`, the weight and bias windows are whole. -/
theorem idx_facts : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

set_option maxHeartbeats 400000 in
/-- What point `t` writes back is block `t` of `whole` of the arrays the region finds. -/
theorem flushed_eq (c : Dev nD) (t : Fin cfg7.N) :
    (dat7 (F := Ideal) V c).flushed 3 t
      = ((cfg7.win 3).blk t).view.read (Elt Ideal) (whole (V c main_v60) (V c main_arg10) (V c main_v87)) := by
  show (cfg7.win 3).cut (grid7.coords t) ((dat7 V c).after 3 t) = _
  rw [after7_3]
  unfold out7_3
  rw [View.canon_unit_zero off_zero]
  simp only [View.ld_unit_zero (S := S5000x128) off_zero, View.ld_unit_zero (S := S128x128) off_zero, View.ld_unit_zero (S := S1x128) off_zero]
  obtain ⟨e00, e01, e10, e11, e20, e21, eo0, eo1⟩ := idx_facts t
  funext j
  obtain ⟨p, q, rfl⟩ : ∃ (p : Fin 5000) (q : Fin 128), j = ix2 p q := ⟨j 0, j 1, eq_ix2 j⟩
  refine (pay_apply (iblk7 V c 0 t) (iblk7 V c 1 t) (iblk7 V c 2 t) p q).trans ?_
  refine (block_entry (V c main_v60) (V c main_arg10) (V c main_v87) (iblk7 V c 0 t) (iblk7 V c 1 t) (iblk7 V c 2 t) p q
    (((cfg7.win 3).blk t).view.emb (ix2 p q) 0) (((cfg7.win 3).blk t).view.emb (ix2 p q) 1) (fun k => ?_) (fun k => ?_) ?_).trans ?_
  · show V c main_v60 (((cfg7.win 0).blk t).view.emb (ix2 p k)) = V c main_v60 _
    refine congrArg (V c main_v60) ?_
    funext a; apply Fin.ext
    match a with
    | ⟨0, _⟩ => show win7_0.index t (0 : Fin 2) * 5000 + 1 * p.val = win7_3.index t (0 : Fin 2) * 5000 + 1 * p.val; omega
    | ⟨1, _⟩ => show win7_0.index t (1 : Fin 2) * 128 + 1 * k.val = k.val; omega
  · show V c main_arg10 (((cfg7.win 1).blk t).view.emb (ix2 k q)) = V c main_arg10 _
    refine congrArg (V c main_arg10) ?_
    funext a; apply Fin.ext
    match a with
    | ⟨0, _⟩ => show win7_1.index t (0 : Fin 2) * 128 + 1 * k.val = k.val; omega
    | ⟨1, _⟩ => show win7_1.index t (1 : Fin 2) * 128 + 1 * q.val = win7_3.index t (1 : Fin 2) * 128 + 1 * q.val; omega
  · show V c main_v87 (((cfg7.win 2).blk t).view.emb (ix2 (0 : Fin 1) q)) = V c main_v87 _
    refine congrArg (V c main_v87) ?_
    funext a; apply Fin.ext
    match a with
    | ⟨0, _⟩ => show win7_2.index t (0 : Fin 2) * 1 + 1 * 0 = 0; omega
    | ⟨1, _⟩ => show win7_2.index t (1 : Fin 2) * 128 + 1 * q.val = win7_3.index t (1 : Fin 2) * 128 + 1 * q.val; omega
  · rfl

/-- An index of the array is in point `t`'s block iff each coordinate is in the block's range on its axis. -/
theorem mem_blk (t : Fin cfg7.N) (i : S100000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v88).slice (win7_3.rect t)).set ↔ _
  rw [View.set_slice_whole, Rect.mem_set_unit]
  exact Iff.rfl

/-- Row `r` lies in the block of point `r / 5000`: the twenty row blocks cover the array. -/
theorem covered (i : S100000x128.Idx) :
    ∃ t : Fin cfg7.N, (cfg7.win 3).flush t = true ∧ i ∈ ((cfg7.win 3).blk t).view.set := by
  have hi0 : (i 0).val < 100000 := (i 0).isLt
  have hi1 : (i 1).val < 128 := (i 1).isLt
  have hN : cfg7.N = 20 := N_7
  let t : Fin cfg7.N := ⟨(i 0).val / 5000, by rw [hN]; omega⟩
  obtain ⟨e00, e01, e10, e11, e20, e21, eo0, eo1⟩ := idx_facts t
  have ht : t.val = (i 0).val / 5000 := rfl
  refine ⟨t, flush7_3 t, ?_⟩
  rw [mem_blk]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 128 ≤ (i 1).val ∧ (i 1).val < win7_3.index t (1 : Fin 2) * 128 + 128; omega

/-- The array after the twenty write-backs is `whole` of the arrays the region finds. -/
theorem final (c : Dev nD) :
    (dat7 (F := Ideal) V c).arrAt 3 cfg7.N = whole (V c main_v60) (V c main_arg10) (V c main_v87) :=
  (dat7 V c).arrAt_eq_of_cover 3 (whole (V c main_v60) (V c main_arg10) (V c main_v87)) (fun t _ => flushed_eq V c t) covered

end Cert.KernelIdeal.Val.R7

namespace Cert.KernelIdeal.Val

open Cert.KernelIdeal Cert.KernelIdeal.Gen Idealize.ShloMosaic Idealize.ShloMosaic.TcCoe Idealize.ShloMosaic.ValueIdx

-- the TensorCore's buffer contents when the region is entered
variable (V : (c : Dev nD) → (b : Ref sig .tc) → Buf (Elt Ideal) ((c : Thread nD τ).loc b))

/-- Entry (p, q) of region 7's output array after its twenty row blocks are written back. -/
theorem region7_apply (c : Dev nD) (p : Fin 100000) (q : Fin 128) :
    entryAt ((dat7 (F := Ideal) V c).arrAt 3 cfg7.N) p q = linAt (V c main_v60) (V c main_arg10) (V c main_v87) p q := by
  unfold entryAt
  rw [R7.final V c]
  rfl

end Cert.KernelIdeal.Val

end
-- ==== Proof.Region8.lean ====
/-
  Region 8 of the program, read at an entry: every entry (p, q) of the array the region leaves is
  the rows of the sum of the two left arrays times the 128×128 weight, plus the bias row, of the arrays the region finds at its entry.
-/
import proofs.«138299_j73512660238656_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«138299_j73512660238656_1_alg».proof.Proof.LibProductEntry
import proofs.«138299_j73512660238656_1_alg».proof.Proof.LibKeepDims
import proofs.«138299_j73512660238656_1_alg».proof.Proof.Spec

noncomputable section

open scoped BigOperators

namespace Cert.KernelIdeal.Val.R8

open Cert.KernelIdeal Cert.KernelIdeal.Gen Idealize.ShloMosaic Idealize.ShloMosaic.TcCoe Idealize.ShloMosaic.ValueIdx

/-- The contraction record of the 5000×128 by 128×128 product. -/
abbrev D : DotDims S5000x128 S128x128 S5000x128 := dot_S5000x128_S128x128_S5000x128_1_0_0_1_n_n

/-- At output index i and contraction position k the left operand is read at row `i 0`, -/
theorem D_l0 (i : S5000x128.Idx) (k : D.contr.Idx) : (D.lhsIdx i k 0).val = (i 0).val := by
  unfold DotDims.lhsIdx
  rw [dif_neg (show ¬(0 : Fin S5000x128.rank) ∈ D.lhsBatch by decide), dif_pos (show (0 : Fin S5000x128.rank) ∈ D.lhsNonContracting by decide)]
  rfl
/-- and at column k; -/
theorem D_l1 (i : S5000x128.Idx) (k : D.contr.Idx) : (D.lhsIdx i k 1).val = (k ⟨0, by decide⟩).val :=
  D.lhsIdx_val_of_single rfl i k
/-- the right operand at row k -/
theorem D_r0 (i : S5000x128.Idx) (k : D.contr.Idx) : (D.rhsIdx i k 0).val = (k ⟨0, by decide⟩).val :=
  D.rhsIdx_val_of_single rfl i k
/-- and at column `i 1`. -/
theorem D_r1 (i : S5000x128.Idx) (k : D.contr.Idx) : (D.rhsIdx i k 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The value the body stores, at entry (p, q) of its block, over any four loaded blocks: the three identity casts drop,
    the change of float format is the identity at the ideal values, the product onto the zero accumulator is the exact
    sum over the 128 contraction positions, and the bias row is spread over the 5000 rows. -/
theorem pay_apply (x0 x1 : FVec Ideal S5000x128 .f32) (w : FVec Ideal S128x128 .f32) (b : FVec Ideal S1x128 .f32)
    (p : Fin 5000) (q : Fin 128) :
    k8_pay1 (F := Ideal) x0 x1 w b (ix2 p q)
      = FloatOps.addf (∑ k : Fin 128, FloatOps.addf (x0 (ix2 p k)) (x1 (ix2 p k)) * w (ix2 k q)) (b (ix2 (0 : Fin 1) q)) := by
  unfold k8_pay1
  show FloatOps.addf (matmul D none _ _ (constant S5000x128 .f32 0x00000000#32) (ix2 p q)) (broadcastTo S5000x128 (shapeCast S1x128 b _) _ (ix2 p q)) = _
  rw [shapeCast_self, shapeCast_self, shapeCast_self, broadcastTo_1b_ab_apply]
  refine congrArg (fun z => FloatOps.addf z (b (ix2 (0 : Fin 1) q))) ?_
  refine (Ideal.matmul_constant_zero_apply D none _ _ (ix2 p q)).trans ?_
  refine (Cert.ProductEntry.sum_apply D rfl rfl D_l0 D_l1 D_r0 D_r1 _ _ p q).trans ?_
  rfl

-- the buffer contents when the region is entered
variable (V : (c : Dev nD) → (b : Ref sig .tc) → Buf (Elt Ideal) ((c : Thread nD τ).loc b))

/-- The zero offsets of a whole-buffer rectangle, as a constant function. -/
theorem hz : (![0, 0] : Fin 2 → Nat) = fun _ => 0 := funext fun a => by fin_cases a <;> rfl

/-- The block indices of the five windows at every point of the grid. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

/-- Entry x of the first left array's block at point t is the array's entry in row 5000 t + x₀, same column:
    an element of a block sits, on each axis, at block index × block size + its own coordinate. -/
theorem blk0_apply (c : Dev nD) (t : Fin cfg8.N) (x : S5000x128.Idx) (k : S100000x128.Idx)
    (hk0 : (k 0).val = 5000 * t.val + (x 0).val) (hk1 : (k 1).val = (x 1).val) :
    (iblk8 V c 0 t : FVec Ideal S5000x128 .f32) x = (V c main_v86 : FVec Ideal S100000x128 .f32) k := by
  obtain ⟨e0, e1, -⟩ := idx_facts t
  unfold iblk8
  rw [View.read_apply]
  show V c main_v86 _ = V c main_v86 _
  refine congrArg (V c main_v86) ?_
  funext a
  apply Fin.ext
  match a with
  | ⟨0, _⟩ => show win8_0.index t (0 : Fin 2) * 5000 + 1 * (x 0).val = (k 0).val; rw [e0, hk0]; omega
  | ⟨1, _⟩ => show win8_0.index t (1 : Fin 2) * 128 + 1 * (x 1).val = (k 1).val; rw [e1, hk1]; omega

/-- The same for the second left array. -/
theorem blk1_apply (c : Dev nD) (t : Fin cfg8.N) (x : S5000x128.Idx) (k : S100000x128.Idx)
    (hk0 : (k 0).val = 5000 * t.val + (x 0).val) (hk1 : (k 1).val = (x 1).val) :
    (iblk8 V c 1 t : FVec Ideal S5000x128 .f32) x = (V c main_v88 : FVec Ideal S100000x128 .f32) k := by
  obtain ⟨-, -, e0, e1, -⟩ := idx_facts t
  unfold iblk8
  rw [View.read_apply]
  show V c main_v88 _ = V c main_v88 _
  refine congrArg (V c main_v88) ?_
  funext a
  apply Fin.ext
  match a with
  | ⟨0, _⟩ => show win8_1.index t (0 : Fin 2) * 5000 + 1 * (x 0).val = (k 0).val; rw [e0, hk0]; omega
  | ⟨1, _⟩ => show win8_1.index t (1 : Fin 2) * 128 + 1 * (x 1).val = (k 1).val; rw [e1, hk1]; omega

/-- The weight is staged whole: its block at every point is the array itself. -/
theorem blk2_apply (c : Dev nD) (t : Fin cfg8.N) (x : S128x128.Idx) :
    (iblk8 V c 2 t : FVec Ideal S128x128 .f32) x = (V c main_arg12 : FVec Ideal S128x128 .f32) x := by
  obtain ⟨-, -, -, -, e0, e1, -⟩ := idx_facts t
  unfold iblk8
  rw [View.read_apply]
  show V c main_arg12 _ = V c main_arg12 _
  refine congrArg (V c main_arg12) ?_
  funext a
  apply Fin.ext
  match a with
  | ⟨0, _⟩ => show win8_2.index t (0 : Fin 2) * 128 + 1 * (x 0).val = (x 0).val; rw [e0]; omega
  | ⟨1, _⟩ => show win8_2.index t (1 : Fin 2) * 128 + 1 * (x 1).val = (x 1).val; rw [e1]; omega

/-- The bias row is staged whole: its block at every point is the row itself. -/
theorem blk3_apply (c : Dev nD) (t : Fin cfg8.N) (x : S1x128.Idx) :
    (iblk8 V c 3 t : FVec Ideal S1x128 .f32) x = (V c main_v89 : FVec Ideal S1x128 .f32) x := by
  obtain ⟨-, -, -, -, -, -, e0, e1, -⟩ := idx_facts t
  unfold iblk8
  rw [View.read_apply]
  show V c main_v89 _ = V c main_v89 _
  refine congrArg (V c main_v89) ?_
  funext a
  apply Fin.ext
  match a with
  | ⟨0, _⟩ => show win8_3.index t (0 : Fin 2) * 1 + 1 * (x 0).val = (x 0).val; rw [e0]; omega
  | ⟨1, _⟩ => show win8_3.index t (1 : Fin 2) * 128 + 1 * (x 1).val = (x 1).val; rw [e1]; omega

/-- The whole output array as one function of the four arrays the region reads. -/
def G (a0 a1 : FVec Ideal S100000x128 .f32) (w : FVec Ideal S128x128 .f32) (b : FVec Ideal S1x128 .f32) :
    FVec Ideal S100000x128 .f32 := fun i => linAddAt a0 a1 w b (i 0) (i 1)

/-- What the body stores at point t, entry (p, q) of its block, is the layer's entry (5000 t + p, q). -/
theorem body_apply (c : Dev nD) (t : Fin cfg8.N) (p : Fin 5000) (q : Fin 128) (r : Fin 100000) (hr : r.val = 5000 * t.val + p.val) :
    k8_pay1 (F := Ideal) (iblk8 V c 0 t) (iblk8 V c 1 t) (iblk8 V c 2 t) (iblk8 V c 3 t) (ix2 p q)
      = linAddAt (V c main_v86) (V c main_v88) (V c main_arg12) (V c main_v89) r q := by
  refine (pay_apply (iblk8 V c 0 t) (iblk8 V c 1 t) (iblk8 V c 2 t) (iblk8 V c 3 t) p q).trans ?_
  unfold linAddAt
  refine congrArg₂ (fun s z => FloatOps.addf s z) (Finset.sum_congr rfl fun k _ => ?_) (blk3_apply V c t _)
  rw [blk0_apply V c t (ix2 p k) (ix2 r k) hr rfl, blk1_apply V c t (ix2 p k) (ix2 r k) hr rfl, blk2_apply V c t (ix2 k q)]

/-- What point t writes back is block t of the layer's array. -/
theorem flushed_eq (c : Dev nD) (t : Fin cfg8.N) :
    (dat8 (F := Ideal) V c).flushed 4 t
      = ((cfg8.win 4).blk t).view.read (Elt Ideal) (G (V c main_v86) (V c main_v88) (V c main_arg12) (V c main_v89)) := by
  show (cfg8.win 4).cut (grid8.coords t) ((dat8 V c).after 4 t) = _
  rw [after8_4]
  unfold out8_4
  rw [View.canon_unit_zero hz]
  simp only [View.ld_unit_zero (S := S5000x128) hz, View.ld_unit_zero (S := S128x128) hz, View.ld_unit_zero (S := S1x128) hz]
  obtain ⟨-, -, -, -, -, -, -, -, e0, e1⟩ := idx_facts t
  have ht : t.val < 20 := Nat.lt_of_lt_of_eq t.isLt N_8
  show (k8_pay1 (F := Ideal) (iblk8 V c 0 t) (iblk8 V c 1 t) (iblk8 V c 2 t) (iblk8 V c 3 t) : FVec Ideal S5000x128 .f32)
    = fun j : S5000x128.Idx => G (V c main_v86) (V c main_v88) (V c main_arg12) (V c main_v89) (((cfg8.win 4).blk t).view.emb j)
  funext j
  obtain ⟨p, q, rfl⟩ : ∃ (p : Fin 5000) (q : Fin 128), j = ix2 p q := ⟨j 0, j 1, eq_ix2 j⟩
  have hr : 5000 * t.val + p.val < 100000 := by have := p.isLt; omega
  refine (body_apply V c t p q ⟨5000 * t.val + p.val, hr⟩ rfl).trans ?_
  unfold G
  refine congrArg₂ (linAddAt (V c main_v86) (V c main_v88) (V c main_arg12) (V c main_v89)) (Fin.ext ?_) (Fin.ext ?_)
  · show 5000 * t.val + p.val = win8_4.index t (0 : Fin 2) * 5000 + 1 * p.val
    rw [e0]; omega
  · show q.val = win8_4.index t (1 : Fin 2) * 128 + 1 * q.val
    rw [e1]; omega

/-- An index of the array is in point t's block iff each coordinate is in the block's range on its axis. -/
theorem mem_blk (t : Fin cfg8.N) (i : S100000x128.Idx) :
    i ∈ ((cfg8.win 4).blk t).view.set ↔ ∀ a : Fin 2, win8_4.index t a * S5000x128.size a ≤ (i a).val ∧ (i a).val < win8_4.index t a * S5000x128.size a + S5000x128.size a := by
  show i ∈ ((View.whole main_v90).slice (win8_4.rect t)).set ↔ _
  rw [View.set_slice_whole, Rect.mem_set_unit]
  exact Iff.rfl

/-- Row r of the array lies in the block of point r / 5000. -/
theorem cover (i : S100000x128.Idx) : ∃ t : Fin cfg8.N, (cfg8.win 4).flush t = true ∧ i ∈ ((cfg8.win 4).blk t).view.set := by
  have hi0 : (i 0).val < 100000 := (i 0).isLt
  have hi1 : (i 1).val < 128 := (i 1).isLt
  obtain ⟨t, ht⟩ : ∃ t : Fin cfg8.N, t.val = (i 0).val / 5000 := ⟨⟨(i 0).val / 5000, by rw [show cfg8.N = 20 from N_8]; omega⟩, rfl⟩
  obtain ⟨-, -, -, -, -, -, -, -, e0, e1⟩ := idx_facts t
  refine ⟨t, flush8_4 t, ?_⟩
  rw [mem_blk]
  intro a
  match a with
  | ⟨0, _⟩ =>
    show win8_4.index t (0 : Fin 2) * 5000 ≤ (i 0).val ∧ (i 0).val < win8_4.index t (0 : Fin 2) * 5000 + 5000
    rw [e0, ht]; omega
  | ⟨1, _⟩ =>
    show win8_4.index t (1 : Fin 2) * 128 ≤ (i 1).val ∧ (i 1).val < win8_4.index t (1 : Fin 2) * 128 + 128
    rw [e1]; omega

/-- The output array after the twenty write-backs is the layer's array. -/
theorem final (c : Dev nD) :
    (dat8 (F := Ideal) V c).arrAt 4 cfg8.N = G (V c main_v86) (V c main_v88) (V c main_arg12) (V c main_v89) :=
  (dat8 (F := Ideal) V c).arrAt_eq_of_cover 4 (G (V c main_v86) (V c main_v88) (V c main_arg12) (V c main_v89))
    (fun t _ => flushed_eq V c t) cover

end Cert.KernelIdeal.Val.R8

namespace Cert.KernelIdeal.Val

open Cert.KernelIdeal Cert.KernelIdeal.Gen Idealize.ShloMosaic Idealize.ShloMosaic.TcCoe Idealize.ShloMosaic.ValueIdx

-- the TensorCore's buffer contents when the region is entered
variable (V : (c : Dev nD) → (b : Ref sig .tc) → Buf (Elt Ideal) ((c : Thread nD τ).loc b))

/-- Entry (p, q) of region 8's output array after its twenty row blocks are written back. -/
theorem region8_apply (c : Dev nD) (p : Fin 100000) (q : Fin 128) :
    entryAt ((dat8 (F := Ideal) V c).arrAt 4 cfg8.N) p q = linAddAt (V c main_v86) (V c main_v88) (V c main_arg12) (V c main_v89) p q := by
  unfold entryAt
  exact congrFun (R8.final V c) (ix2 p q)

end Cert.KernelIdeal.Val

end
-- ==== Proof.Chain.lean ====
/-
  The idealized kernel program's result is the reference's last stage of the launch arguments.
  Boundary by boundary: a region's output array, read at an entry, is the formula of the arrays the region finds
  (a row times a weight matrix, with or without a bias row and a second summand; the aggregation step), those arrays
  are the reference's earlier stages (carried buffers, the host stretches, the earlier regions), and the reference's
  stage at that entry is the same formula of the same stages: the host's matrix product is the same sum over the
  128 channels, its two-step broadcasts of a coefficient vector and of a bias vector read the vector's entry.
-/
import proofs.«138299_j73512660238656_1_alg».proof.Proof.Gen.KernelIdeal.Frame
import proofs.«138299_j73512660238656_1_alg».proof.Proof.Gen.ReferenceIdeal.Read
import proofs.«138299_j73512660238656_1_alg».proof.Proof.Carry
import proofs.«138299_j73512660238656_1_alg».proof.Proof.ChainHost
import proofs.«138299_j73512660238656_1_alg».proof.Proof.Spec
import proofs.«138299_j73512660238656_1_alg».proof.Proof.Region0
import proofs.«138299_j73512660238656_1_alg».proof.Proof.Region1
import proofs.«138299_j73512660238656_1_alg».proof.Proof.Region2
import proofs.«138299_j73512660238656_1_alg».proof.Proof.Region3
import proofs.«138299_j73512660238656_1_alg».proof.Proof.Region4
import proofs.«138299_j73512660238656_1_alg».proof.Proof.Region5
import proofs.«138299_j73512660238656_1_alg».proof.Proof.Region6
import proofs.«138299_j73512660238656_1_alg».proof.Proof.Region7
import proofs.«138299_j73512660238656_1_alg».proof.Proof.Region8

noncomputable section

open scoped BigOperators

namespace Cert.KernelIdeal.Val

open Cert.KernelIdeal Cert.KernelIdeal.Gen Idealize.ShloMosaic Idealize.ShloMosaic.TcCoe Idealize.ShloMosaic.ValueIdx
open Cert.ReferenceIdeal.Read

variable (m : (ℓ : Loc nD τ sig) → Buf (Elt Ideal) ℓ) (ρ : Dev nD → PrngReg) (c : Dev nD)

/-- Two index functions of a rank-2 shape agree when their two coordinates do. -/
local macro "idx2" : tactic => `(tactic| (funext a; match a with | ⟨0, _⟩ => rfl | ⟨1, _⟩ => rfl))
/-- Two index functions of a rank-1 shape agree when their coordinate does. -/
local macro "idx1" : tactic => `(tactic| (funext a; match a with | ⟨0, _⟩ => rfl))

/-! ## The first branch: projection, aggregation with the positive part, projection, aggregation -/

theorem s2 : W2 m ρ c (Proc.devRef .tc main_v27) = val_main_v27 (F := Ideal) (a0 m c) (a2 m c) := by
  refine (W2_arr m ρ c 2).trans ?_
  funext i
  obtain ⟨p, q, rfl⟩ : ∃ (p : Fin 100000) (q : Fin 128), i = ix2 p q := ⟨i 0, i 1, eq_ix2 (n0 := 100000) (n1 := 128) i⟩
  refine (region0_apply (V1 m ρ) c p q).trans ?_
  have e0 : V1 m ρ c main_arg0 = a0 m c := W1_arg0 m ρ c
  have e2 : V1 m ρ c main_arg2 = a2 m c := W1_arg2 m ρ c
  have hl : ∀ k, lidx_main_v27 (ix2 p q) k = ix2 p k := fun k => by idx2
  have hr : ∀ k, ridx_main_v27 (ix2 p q) k = ix2 k q := fun k => by idx2
  rw [val_main_v27_apply]
  unfold mmAt
  rw [e0, e2]
  simp only [hl, hr]

theorem s4 : W4 m ρ c (Proc.devRef .tc main_v43) = val_main_v48 (F := Ideal) (a0 m c) (a1 m c) (a2 m c) (a3 m c) := by
  refine (W4_arr m ρ c 4).trans ?_
  funext i
  obtain ⟨p, q, rfl⟩ : ∃ (p : Fin 100000) (q : Fin 128), i = ix2 p q := ⟨i 0, i 1, eq_ix2 (n0 := 100000) (n1 := 128) i⟩
  refine (region1_apply (V3 m ρ) c p q).trans ?_
  have e40 : V3 m ρ c main_v40 = val_main_v40 (F := Ideal) (a0 m c) (a1 m c) (a2 m c) := h3_v40 m ρ c (s2 m ρ c)
  have e27 : V3 m ρ c main_v27 = val_main_v27 (F := Ideal) (a0 m c) (a2 m c) := (W3_v27 m ρ c).trans (s2 m ρ c)
  have e41 : V3 m ρ c main_v41 (ix2 p (0 : Fin 1)) = val_main_v26 (F := Ideal) (a1 m c) (ix1 p) := h3_v41 m ρ c p
  have e42 : V3 m ρ c main_v42 (ix2 (0 : Fin 1) q) = a3 m c (ix1 q) := h3_v42 m ρ c q
  have i1 : idx_main_v41 (idx_main_v42 (ix2 p q)) = ix1 p := by idx1
  have i2 : idx_main_v45 (idx_main_v46 (ix2 p q)) = ix1 q := by idx1
  rw [val_main_v48_apply, val_main_v47_apply, val_main_v44_apply, val_main_v43_apply, val_main_v42_apply, val_main_v41_apply, val_main_v46_apply, val_main_v45_apply, val_main_call0_v0_apply, val_main_call0_cst_apply, i1, i2]
  unfold combReluAt combAt
  rw [e40, e27, e41, e42]

theorem s5 : W5 m ρ c (Proc.devRef .tc main_v44) = val_main_v49 (F := Ideal) (a0 m c) (a1 m c) (a2 m c) (a3 m c) (a4 m c) := by
  refine (W5_arr m ρ c 2).trans ?_
  funext i
  obtain ⟨p, q, rfl⟩ : ∃ (p : Fin 100000) (q : Fin 128), i = ix2 p q := ⟨i 0, i 1, eq_ix2 (n0 := 100000) (n1 := 128) i⟩
  refine (region2_apply (V4 m ρ) c p q).trans ?_
  have e43 : V4 m ρ c main_v43 = val_main_v48 (F := Ideal) (a0 m c) (a1 m c) (a2 m c) (a3 m c) := s4 m ρ c
  have e4 : V4 m ρ c main_arg4 = a4 m c := W4_arg4 m ρ c
  have hl : ∀ k, lidx_main_v49 (ix2 p q) k = ix2 p k := fun k => by idx2
  have hr : ∀ k, ridx_main_v49 (ix2 p q) k = ix2 k q := fun k => by idx2
  rw [val_main_v49_apply]
  unfold mmAt
  rw [e43, e4]
  simp only [hl, hr]

theorem s7 : W7 m ρ c (Proc.devRef .tc main_v60) = val_main_v69 (F := Ideal) (a0 m c) (a1 m c) (a2 m c) (a3 m c) (a4 m c) (a5 m c) := by
  refine (W7_arr m ρ c 4).trans ?_
  funext i
  obtain ⟨p, q, rfl⟩ : ∃ (p : Fin 100000) (q : Fin 128), i = ix2 p q := ⟨i 0, i 1, eq_ix2 (n0 := 100000) (n1 := 128) i⟩
  refine (region3_apply (V6 m ρ) c p q).trans ?_
  have e57 : V6 m ρ c main_v57 = val_main_v62 (F := Ideal) (a0 m c) (a1 m c) (a2 m c) (a3 m c) (a4 m c) := h6_v57 m ρ c (s5 m ρ c)
  have e44 : V6 m ρ c main_v44 = val_main_v49 (F := Ideal) (a0 m c) (a1 m c) (a2 m c) (a3 m c) (a4 m c) := (W6_v44 m ρ c).trans (s5 m ρ c)
  have e58 : V6 m ρ c main_v58 (ix2 p (0 : Fin 1)) = val_main_v26 (F := Ideal) (a1 m c) (ix1 p) := h6_v58 m ρ c p
  have e59 : V6 m ρ c main_v59 (ix2 (0 : Fin 1) q) = a5 m c (ix1 q) := h6_v59 m ρ c q
  have i1 : idx_main_v63 (idx_main_v64 (ix2 p q)) = ix1 p := by idx1
  have i2 : idx_main_v67 (idx_main_v68 (ix2 p q)) = ix1 q := by idx1
  rw [val_main_v69_apply, val_main_v66_apply, val_main_v65_apply, val_main_v64_apply, val_main_v63_apply, val_main_v68_apply, val_main_v67_apply, i1, i2]
  unfold combAt
  rw [e57, e44, e58, e59]

/-! ## The second branch: two steps of (x + segment sum of x) times a weight plus a bias -/

theorem s9 : W9 m ρ c (Proc.devRef .tc main_v72) = val_main_v84 (F := Ideal) (a0 m c) (a1 m c) (a6 m c) (a7 m c) := by
  refine (W9_arr m ρ c 4).trans ?_
  funext i
  obtain ⟨p, q, rfl⟩ : ∃ (p : Fin 100000) (q : Fin 128), i = ix2 p q := ⟨i 0, i 1, eq_ix2 (n0 := 100000) (n1 := 128) i⟩
  refine (region4_apply (V8 m ρ) c p q).trans ?_
  have e0 : V8 m ρ c main_arg0 = a0 m c := W8_arg0 m ρ c
  have e70 : V8 m ρ c main_v70 = val_main_v79 (F := Ideal) (a0 m c) (a1 m c) := h8_v70 m ρ c
  have e6 : V8 m ρ c main_arg6 = a6 m c := W8_arg6 m ρ c
  have e71 : V8 m ρ c main_v71 (ix2 (0 : Fin 1) q) = a7 m c (ix1 q) := h8_v71 m ρ c q
  have hl : ∀ k, lidx_main_v81 (ix2 p q) k = ix2 p k := fun k => by idx2
  have hr : ∀ k, ridx_main_v81 (ix2 p q) k = ix2 k q := fun k => by idx2
  have i2 : idx_main_v82 (idx_main_v83 (ix2 p q)) = ix1 q := by idx1
  rw [val_main_v84_apply, val_main_v81_apply, val_main_v83_apply, val_main_v82_apply, i2]
  unfold linAddAt
  rw [e0, e70, e6, e71]
  simp only [hl, hr, val_main_v80_apply]

theorem s11 : W11 m ρ c (Proc.devRef .tc main_v84) = val_main_v99 (F := Ideal) (a0 m c) (a1 m c) (a6 m c) (a7 m c) (a8 m c) (a9 m c) := by
  refine (W11_arr m ρ c 4).trans ?_
  funext i
  obtain ⟨p, q, rfl⟩ : ∃ (p : Fin 100000) (q : Fin 128), i = ix2 p q := ⟨i 0, i 1, eq_ix2 (n0 := 100000) (n1 := 128) i⟩
  refine (region5_apply (V10 m ρ) c p q).trans ?_
  have e72 : V10 m ρ c main_v72 = val_main_v84 (F := Ideal) (a0 m c) (a1 m c) (a6 m c) (a7 m c) := (W10_v72 m ρ c).trans (s9 m ρ c)
  have e82 : V10 m ρ c main_v82 = val_main_v94 (F := Ideal) (a0 m c) (a1 m c) (a6 m c) (a7 m c) := h10_v82 m ρ c (s9 m ρ c)
  have e8 : V10 m ρ c main_arg8 = a8 m c := W10_arg8 m ρ c
  have e83 : V10 m ρ c main_v83 (ix2 (0 : Fin 1) q) = a9 m c (ix1 q) := h10_v83 m ρ c q
  have hl : ∀ k, lidx_main_v96 (ix2 p q) k = ix2 p k := fun k => by idx2
  have hr : ∀ k, ridx_main_v96 (ix2 p q) k = ix2 k q := fun k => by idx2
  have i2 : idx_main_v97 (idx_main_v98 (ix2 p q)) = ix1 q := by idx1
  rw [val_main_v99_apply, val_main_v96_apply, val_main_v98_apply, val_main_v97_apply, i2]
  unfold linAddAt
  rw [e72, e82, e8, e83]
  simp only [hl, hr, val_main_v95_apply]

/-! ## The heads: each branch through the shared weight, then their sum through the last weight -/

theorem s13 : W13 m ρ c (Proc.devRef .tc main_v86) = val_main_v103 (F := Ideal) (a0 m c) (a1 m c) (a6 m c) (a7 m c) (a8 m c) (a9 m c) (a10 m c) (a11 m c) := by
  refine (W13_arr m ρ c 3).trans ?_
  funext i
  obtain ⟨p, q, rfl⟩ : ∃ (p : Fin 100000) (q : Fin 128), i = ix2 p q := ⟨i 0, i 1, eq_ix2 (n0 := 100000) (n1 := 128) i⟩
  refine (region6_apply (V12 m ρ) c p q).trans ?_
  have e84 : V12 m ρ c main_v84 = val_main_v99 (F := Ideal) (a0 m c) (a1 m c) (a6 m c) (a7 m c) (a8 m c) (a9 m c) := (W12_v84 m ρ c).trans (s11 m ρ c)
  have e10 : V12 m ρ c main_arg10 = a10 m c := W12_arg10 m ρ c
  have e85 : V12 m ρ c main_v85 (ix2 (0 : Fin 1) q) = a11 m c (ix1 q) := h12_v85 m ρ c q
  have hl : ∀ k, lidx_main_v100 (ix2 p q) k = ix2 p k := fun k => by idx2
  have hr : ∀ k, ridx_main_v100 (ix2 p q) k = ix2 k q := fun k => by idx2
  have i2 : idx_main_v101 (idx_main_v102 (ix2 p q)) = ix1 q := by idx1
  rw [val_main_v103_apply, val_main_v100_apply, val_main_v102_apply, val_main_v101_apply, i2]
  unfold linAt
  rw [e84, e10, e85]
  simp only [hl, hr]

theorem s15 : W15 m ρ c (Proc.devRef .tc main_v88) = val_main_v107 (F := Ideal) (a0 m c) (a1 m c) (a2 m c) (a3 m c) (a4 m c) (a5 m c) (a10 m c) (a11 m c) := by
  refine (W15_arr m ρ c 3).trans ?_
  funext i
  obtain ⟨p, q, rfl⟩ : ∃ (p : Fin 100000) (q : Fin 128), i = ix2 p q := ⟨i 0, i 1, eq_ix2 (n0 := 100000) (n1 := 128) i⟩
  refine (region7_apply (V14 m ρ) c p q).trans ?_
  have e60 : V14 m ρ c main_v60 = val_main_v69 (F := Ideal) (a0 m c) (a1 m c) (a2 m c) (a3 m c) (a4 m c) (a5 m c) := (W14_v60 m ρ c).trans (s7 m ρ c)
  have e10 : V14 m ρ c main_arg10 = a10 m c := W14_arg10 m ρ c
  have e87 : V14 m ρ c main_v87 (ix2 (0 : Fin 1) q) = a11 m c (ix1 q) := h14_v87 m ρ c q
  have hl : ∀ k, lidx_main_v104 (ix2 p q) k = ix2 p k := fun k => by idx2
  have hr : ∀ k, ridx_main_v104 (ix2 p q) k = ix2 k q := fun k => by idx2
  have i2 : idx_main_v105 (idx_main_v106 (ix2 p q)) = ix1 q := by idx1
  rw [val_main_v107_apply, val_main_v104_apply, val_main_v106_apply, val_main_v105_apply, i2]
  unfold linAt
  rw [e60, e10, e87]
  simp only [hl, hr]

/-- The program's result buffer at the last boundary is the reference's last stage of the launch arguments. -/
theorem s17 : W17 m ρ c (Proc.devRef .tc main_v90) = val_main_v112 (F := Ideal) (a0 m c) (a1 m c) (a2 m c) (a3 m c) (a4 m c) (a5 m c) (a6 m c) (a7 m c) (a8 m c) (a9 m c) (a10 m c) (a11 m c) (a12 m c) (a13 m c) := by
  refine (W17_arr m ρ c 4).trans ?_
  funext i
  obtain ⟨p, q, rfl⟩ : ∃ (p : Fin 100000) (q : Fin 128), i = ix2 p q := ⟨i 0, i 1, eq_ix2 (n0 := 100000) (n1 := 128) i⟩
  refine (region8_apply (V16 m ρ) c p q).trans ?_
  have e86 : V16 m ρ c main_v86 = val_main_v103 (F := Ideal) (a0 m c) (a1 m c) (a6 m c) (a7 m c) (a8 m c) (a9 m c) (a10 m c) (a11 m c) := (W16_v86 m ρ c).trans (s13 m ρ c)
  have e88 : V16 m ρ c main_v88 = val_main_v107 (F := Ideal) (a0 m c) (a1 m c) (a2 m c) (a3 m c) (a4 m c) (a5 m c) (a10 m c) (a11 m c) := (W16_v88 m ρ c).trans (s15 m ρ c)
  have e12 : V16 m ρ c main_arg12 = a12 m c := W16_arg12 m ρ c
  have e89 : V16 m ρ c main_v89 (ix2 (0 : Fin 1) q) = a13 m c (ix1 q) := h16_v89 m ρ c q
  have hl : ∀ k, lidx_main_v109 (ix2 p q) k = ix2 p k := fun k => by idx2
  have hr : ∀ k, ridx_main_v109 (ix2 p q) k = ix2 k q := fun k => by idx2
  have i2 : idx_main_v110 (idx_main_v111 (ix2 p q)) = ix1 q := by idx1
  rw [val_main_v112_apply, val_main_v109_apply, val_main_v111_apply, val_main_v110_apply, i2]
  unfold linAddAt
  rw [e86, e88, e12, e89]
  simp only [hl, hr, val_main_v108_apply]

end Cert.KernelIdeal.Val

end
-- ==== Proof.lean ====
/-
  The certificate of the graph-network layer stack: nine row-blocked kernels (four matrix products with and
  without a bias row, three of them of a sum of two arrays, and two aggregation steps) among host stretches that
  gather source rows and sum them over target nodes, against the same network written with the host's matrix
  products. At the ideal values both programs compute, stage by stage, the same functions of the fourteen launch
  arguments: a kernel's matrix multiplication onto a zero accumulator and the host's product are the same sum
  over the 128 channels, the roundings to the narrow format are the identity, and every gather, scaling and segment
  sum between the regions is the reference's own operation applied to equal operands. No algebraic law beyond this
  stage-by-stage identity is needed, so the precondition is not used for the value; the three frame claims are the
  generated frames, and the ideal pass rewrote nothing.
-/
import proofs.«138299_j73512660238656_1_alg».proof.Defs
import proofs.«138299_j73512660238656_1_alg».proof.Proof.Gen.Kernel
import proofs.«138299_j73512660238656_1_alg».proof.Proof.Gen.Kernel.Frame
import proofs.«138299_j73512660238656_1_alg».proof.Proof.Gen.KernelIdeal
import proofs.«138299_j73512660238656_1_alg».proof.Proof.Gen.KernelIdeal.Frame
import proofs.«138299_j73512660238656_1_alg».proof.Proof.Gen.ReferenceIdeal
import proofs.«138299_j73512660238656_1_alg».proof.Proof.Gen.ReferenceIdeal.Run
import proofs.«138299_j73512660238656_1_alg».proof.Proof.Gen.ReferenceIdeal.Read
import proofs.«138299_j73512660238656_1_alg».proof.Proof.Gen.Pre_finite_inputs
import proofs.«138299_j73512660238656_1_alg».proof.Proof.KRun
import proofs.«138299_j73512660238656_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- Both idealized programs end with the result array at the reference's last stage of the launch arguments: the
    kernel program by its run read boundary by boundary, the reference by its own run; the arguments agree. -/
theorem algebraic : Cert.algebraic_KernelIdeal_ReferenceIdeal := by
  intro m ρ m' ρ' _ hagree
  refine ⟨fun c => Cert.ReferenceIdeal.Read.val_main_v112 (F := Ideal) (Cert.KernelIdeal.Val.a0 m c) (Cert.KernelIdeal.Val.a1 m c) (Cert.KernelIdeal.Val.a2 m c) (Cert.KernelIdeal.Val.a3 m c) (Cert.KernelIdeal.Val.a4 m c) (Cert.KernelIdeal.Val.a5 m c) (Cert.KernelIdeal.Val.a6 m c) (Cert.KernelIdeal.Val.a7 m c) (Cert.KernelIdeal.Val.a8 m c) (Cert.KernelIdeal.Val.a9 m c) (Cert.KernelIdeal.Val.a10 m c) (Cert.KernelIdeal.Val.a11 m c) (Cert.KernelIdeal.Val.a12 m c) (Cert.KernelIdeal.Val.a13 m c), ?_, ?_⟩
  · exact (θ_run Cert.KernelIdeal.defs _ _).mono
      (fun r h c => ⟨(h c).1.trans (Cert.KernelIdeal.Val.s17 m ρ c), (h c).2⟩) (Cert.KernelIdeal.Val.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v112_eq, h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
